-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S24x128 : Shape := ⟨2, ![24, 128]⟩
abbrev S24 : Shape := ⟨1, ![24]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S24x128 : S_.BroadcastsInDim S24x128 (![] : Fin 0 → Fin S24x128.rank)
  reducesTo_S24x128_S_d0_1 : S24x128.ReducesTo [0, 1] S_
  bcast_S_S24 : S_.BroadcastsInDim S24 (![] : Fin 0 → Fin S24.rank)
  reducesTo_S24_S_d0 : S24.ReducesTo [0] S_

variable [Facts]

def fn_part1 {F : FTy → Type} [FloatOps F] (main_arg5 : FVec F S24x128 .f32) (main_arg6 : FVec F S24 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S24x128 .f32 := Host.absf main_arg5
  let main_cst_6 : FVec F S_ .f32 := constant S_ .f32 0x7F800000#32
  let main_v20 : FVec F S24x128 .f32 := broadcastInDim S24x128 ![] bcast_S_S24x128 main_cst_6
  let main_v21 : IVec S24x128 1 := cmpf .olt main_v19 main_v20
  let main_c_7 : IVec S_ 1 := constantI S_ 1 1#1
  let main_v22 : IVec S_ 1 := (fun x v => Host.reduce IntOp.andi x v reducesTo_S24x128_S_d0_1 h_S_) main_v21 main_c_7
  let main_v23 : IVec S_ 1 := andi main_v18 main_v22
  let main_v24 : FVec F S24 .f32 := Host.absf main_arg6
  let main_cst_8 : FVec F S_ .f32 := constant S_ .f32 0x7F800000#32
  let main_v25 : FVec F S24 .f32 := broadcastInDim S24 ![] bcast_S_S24 main_cst_8
  let main_v26 : IVec S24 1 := cmpf .olt main_v24 main_v25
  let main_c_9 : IVec S_ 1 := constantI S_ 1 1#1
  let main_v27 : IVec S_ 1 := (fun x v => Host.reduce IntOp.andi x v reducesTo_S24_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S3x128x128 .f32) (main_arg3 : FVec F S3x128 .f32) (main_arg4 : FVec F S3x128x128 .f32) (main_arg5 : FVec F S24x128 .f32) (main_arg6 : FVec F S24 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S24x128 : Shape := ⟨2, ![24, 128]⟩
abbrev S24 : Shape := ⟨1, ![24]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S128x24 : Shape := ⟨2, ![128, 24]⟩
abbrev S1x24 : Shape := ⟨2, ![1, 24]⟩
abbrev S50000x24 : Shape := ⟨2, ![50000, 24]⟩
abbrev S5000x24 : Shape := ⟨2, ![5000, 24]⟩

abbrev nBuf : Space → Nat
  | .hbm => 104
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S24x128, .f32⟩
  | .hbm, ⟨6, _⟩ => ⟨S24, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S1x128x128, .f32⟩
  | .hbm, ⟨40, _⟩ => ⟨S128x128, .f32⟩
  | .hbm, ⟨41, _⟩ => ⟨S1x128, .f32⟩
  | .hbm, ⟨42, _⟩ => ⟨S128, .f32⟩
  | .hbm, ⟨43, _⟩ => ⟨S1x128x128, .f32⟩
  | .hbm, ⟨44, _⟩ => ⟨S128x128, .f32⟩
  | .hbm, ⟨45, _⟩ => ⟨S128x128, .f32⟩
  | .hbm, ⟨46, _⟩ => ⟨S128x128, .f32⟩
  | .hbm, ⟨47, _⟩ => ⟨S1x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S1x128x128, .f32⟩
  | .hbm, ⟨66, _⟩ => ⟨S128x128, .f32⟩
  | .hbm, ⟨67, _⟩ => ⟨S1x128, .f32⟩
  | .hbm, ⟨68, _⟩ => ⟨S128, .f32⟩
  | .hbm, ⟨69, _⟩ => ⟨S1x128x128, .f32⟩
  | .hbm, ⟨70, _⟩ => ⟨S128x128, .f32⟩
  | .hbm, ⟨71, _⟩ => ⟨S128x128, .f32⟩
  | .hbm, ⟨72, _⟩ => ⟨S128x128, .f32⟩
  | .hbm, ⟨73, _⟩ => ⟨S1x128, .f32⟩
  | .hbm, ⟨74, _⟩ => ⟨S50000x128, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S50000x1, .f32⟩
  | .hbm, ⟨89, _⟩ => ⟨S50000x128, .f32⟩
  | .hbm, ⟨90, _⟩ => ⟨S50000x128, .f32⟩
  | .hbm, ⟨91, _⟩ => ⟨S1x128x128, .f32⟩
  | .hbm, ⟨92, _⟩ => ⟨S128x128, .f32⟩
  | .hbm, ⟨93, _⟩ => ⟨S1x128, .f32⟩
  | .hbm, ⟨94, _⟩ => ⟨S128, .f32⟩
  | .hbm, ⟨95, _⟩ => ⟨S1x128x128, .f32⟩
  | .hbm, ⟨96, _⟩ => ⟨S128x128, .f32⟩
  | .hbm, ⟨97, _⟩ => ⟨S128x128, .f32⟩
  | .hbm, ⟨98, _⟩ => ⟨S128x128, .f32⟩
  | .hbm, ⟨99, _⟩ => ⟨S1x128, .f32⟩
  | .hbm, ⟨100, _⟩ => ⟨S50000x128, .f32⟩
  | .hbm, ⟨101, _⟩ => ⟨S128x24, .f32⟩
  | .hbm, ⟨102, _⟩ => ⟨S1x24, .f32⟩
  | .hbm, ⟨103, _⟩ => ⟨S50000x24, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x24, .f32⟩
  | .local _ .vmem, ⟨30, _⟩ => ⟨S1x24, .f32⟩
  | .local _ .vmem, ⟨31, _⟩ => ⟨S5000x24, .f32⟩
  | .local _ .vmem, ⟨32, _⟩ => ⟨S5000x24, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_8 : Ref sig .tc := ⟨.hbm, 75, rfl⟩
abbrev main_v58 : Ref sig .tc := ⟨.hbm, 76, rfl⟩
abbrev main_v59 : Ref sig .tc := ⟨.hbm, 77, rfl⟩
abbrev main_c_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x24 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x24 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x24 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S24x128_S128x24_1_0 : S24x128.Transposes [1, 0] S128x24
  shapeCasts_S24_S1x24 : S24.ShapeCasts S1x24
  inb_S128x24_S128x24_0_0 : ∀ a, (![0, 0] : Fin 2 → Nat) a + S128x24.size a ≤ S128x24.size a
  h_S128x24 : 0 < S128x24.numel
  shapeCasts_S128x24_S128x24 : S128x24.ShapeCasts S128x24
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S5000x24 : S1x24.Broadcasts S5000x24
  inb_S5000x24_S5000x24_0_0 : ∀ a, (![0, 0] : Fin 2 → Nat) a + S5000x24.size a ≤ S5000x24.size a
  h_S5000x24 : 0 < S5000x24.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x24_S5000x24_1_0_0_1_n_n_wf : DotDims.WF S5000x128 S128x24 S5000x24 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x24.size a ≤ S128x24.size a
  hwx3_1 : ∀ i : grid3.Coords, EltTy.bits .f32 = 32 ∨ (Rect.block (s := S128x24) S128x24.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x24.size a ≤ S1x24.size a
  hwx3_2 : ∀ i : grid3.Coords, EltTy.bits .f32 = 32 ∨ (Rect.block (s := S1x24) S1x24.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x24.size a ≤ S50000x24.size a
  hwx3_3 : ∀ i : grid3.Coords, EltTy.bits .f32 = 32 ∨ (Rect.block (s := S50000x24) S5000x24.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x24_S5000x24_1_0_0_1_n_n : DotDims S5000x128 S128x24 S5000x24 where
  lhsContracting := [1]
  rhsContracting := [0]
  lhsNonContracting := [0]
  rhsNonContracting := [1]
  lhsBatch := []
  rhsBatch := []
  wf := dot_S5000x128_S128x24_S5000x24_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v56) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v78) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v80) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v80) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S128x24.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1x24.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S5000x24.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S24x128 : Shape := ⟨2, ![24, 128]⟩
abbrev S24 : Shape := ⟨1, ![24]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S128x24 : Shape := ⟨2, ![128, 24]⟩
abbrev S50000x24 : Shape := ⟨2, ![50000, 24]⟩
abbrev S1x24 : Shape := ⟨2, ![1, 24]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128x128, .f32⟩
  | 5 => ⟨S24x128, .f32⟩
  | 6 => ⟨S24, .f32⟩
  | 7 => ⟨S1x800000, .i32⟩
  | 8 => ⟨S800000, .i32⟩
  | 9 => ⟨S1x800000, .i32⟩
  | 10 => ⟨S800000, .i32⟩
  | 11 => ⟨S1x128x128, .f32⟩
  | 12 => ⟨S128x128, .f32⟩
  | 13 => ⟨S1x128, .f32⟩
  | 14 => ⟨S128, .f32⟩
  | 15 => ⟨S1x128x128, .f32⟩
  | 16 => ⟨S128x128, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S_, .f32⟩
  | 31 => ⟨S800000x1, .f32⟩
  | 32 => ⟨S_, .f32⟩
  | 33 => ⟨S50000x1, .f32⟩
  | 34 => ⟨S800000x1, .i32⟩
  | 35 => ⟨S50000x1, .f32⟩
  | 36 => ⟨S_, .f32⟩
  | 37 => ⟨S50000x1, .f32⟩
  | 38 => ⟨S50000x1, .f32⟩
  | 39 => ⟨S50000x128, .f32⟩
  | 40 => ⟨S50000x128, .f32⟩
  | 41 => ⟨S128x128, .f32⟩
  | 42 => ⟨S50000x128, .f32⟩
  | 43 => ⟨S1x128, .f32⟩
  | 44 => ⟨S50000x128, .f32⟩
  | 45 => ⟨S50000x128, .f32⟩
  | 46 => ⟨S128x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S1x128x128, .f32⟩
  | 53 => ⟨S128x128, .f32⟩
  | 54 => ⟨S1x128, .f32⟩
  | 55 => ⟨S128, .f32⟩
  | 56 => ⟨S1x128x128, .f32⟩
  | 57 => ⟨S128x128, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S_, .f32⟩
  | 72 => ⟨S800000x1, .f32⟩
  | 73 => ⟨S_, .f32⟩
  | 74 => ⟨S50000x1, .f32⟩
  | 75 => ⟨S800000x1, .i32⟩
  | 76 => ⟨S50000x1, .f32⟩
  | 77 => ⟨S_, .f32⟩
  | 78 => ⟨S50000x1, .f32⟩
  | 79 => ⟨S50000x1, .f32⟩
  | 80 => ⟨S50000x128, .f32⟩
  | 81 => ⟨S50000x128, .f32⟩
  | 82 => ⟨S128x128, .f32⟩
  | 83 => ⟨S50000x128, .f32⟩
  | 84 => ⟨S1x128, .f32⟩
  | 85 => ⟨S50000x128, .f32⟩
  | 86 => ⟨S50000x128, .f32⟩
  | 87 => ⟨S128x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S1x128x128, .f32⟩
  | 94 => ⟨S128x128, .f32⟩
  | 95 => ⟨S1x128, .f32⟩
  | 96 => ⟨S128, .f32⟩
  | 97 => ⟨S1x128x128, .f32⟩
  | 98 => ⟨S128x128, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S_, .f32⟩
  | 109 => ⟨S50000x128, .f32⟩
  | 110 => ⟨S800000x1, .i32⟩
  | 111 => ⟨S50000x128, .f32⟩
  | 112 => ⟨S_, .f32⟩
  | 113 => ⟨S800000x1, .f32⟩
  | 114 => ⟨S_, .f32⟩
  | 115 => ⟨S50000x1, .f32⟩
  | 116 => ⟨S800000x1, .i32⟩
  | 117 => ⟨S50000x1, .f32⟩
  | 118 => ⟨S_, .f32⟩
  | 119 => ⟨S50000x1, .f32⟩
  | 120 => ⟨S50000x1, .f32⟩
  | 121 => ⟨S50000x128, .f32⟩
  | 122 => ⟨S50000x128, .f32⟩
  | 123 => ⟨S128x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S128x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S128x24, .f32⟩
  | 7 => ⟨S50000x24, .f32⟩
  | 8 => ⟨S1x24, .f32⟩
  | 9 => ⟨S50000x24, .f32⟩
  | 10 => ⟨S50000x24, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call0_cst : Ref sig .tc := ⟨.hbm, 49, rfl⟩
abbrev main_call0_v0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_4 : Ref sig .tc := ⟨.hbm, 58, rfl⟩
abbrev main_v43 : Ref sig .tc := ⟨.hbm, 59, rfl⟩
abbrev main_v44 : Ref sig .tc := ⟨.hbm, 60, rfl⟩
abbrev main_c_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_call1_cst : Ref sig .tc := ⟨.hbm, 90, rfl⟩
abbrev main_call1_v0 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_10 : Ref sig .tc := ⟨.hbm, 99, rfl⟩
abbrev main_v76 : Ref sig .tc := ⟨.hbm, 100, rfl⟩
abbrev main_v77 : Ref sig .tc := ⟨.hbm, 101, rfl⟩
abbrev main_c_11 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_12 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_13 : Ref sig .tc := ⟨.hbm, 112, rfl⟩
abbrev main_v86 : Ref sig .tc := ⟨.hbm, 113, rfl⟩
abbrev main_cst_14 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_15 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_call2_cst : Ref sig .tc := ⟨.hbm, 131, rfl⟩
abbrev main_call2_v0 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S24x128_S128x24_1_0 : S24x128.Transposes [1, 0] S128x24
  bcast_S24_S1x24_1 : S24.BroadcastsInDim S1x24 (![1] : Fin 1 → Fin S1x24.rank)
  bcast_S1x24_S50000x24_0_1 : S1x24.BroadcastsInDim S50000x24 (![0, 1] : Fin 2 → Fin S50000x24.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  dot_S50000x128_S128x24_S50000x24_1_0_0_1_n_n_wf : DotDims.WF S50000x128 S128x24 S50000x24 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x24_S50000x24_1_0_0_1_n_n : DotDims S50000x128 S128x24 S50000x24 where
  lhsContracting := [1]
  rhsContracting := [0]
  lhsNonContracting := [0]
  rhsNonContracting := [1]
  lhsBatch := []
  rhsBatch := []
  wf := dot_S50000x128_S128x24_S50000x24_1_0_0_1_n_n_wf

class Facts : Prop extends Facts₀ where

variable [Facts]
-- ==== Proof.KRun.lean ====
/-
  The kernel program's run with its result named.

  The program is four pipelined regions among stretches of host lines. Its run is the launch over those eight
  segments; every unscoped buffer ends at the contents of the last boundary, so the result buffer ends at that
  boundary's contents there, and the arguments, which nothing writes, end as launched.
-/
import proofs.«102709_j34041910788824_1_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    last boundary's contents and the arguments as launched. -/
theorem run_named : θ_run defs (onTc (τ := τ) (main (F := F))) ⟨m, fun _ => 0, ρ⟩ (fun r => ∀ c : Dev nD,
      r.2.mem ((c.tc : Thread nD τ).loc main_v83) = W8 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v83 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.Sage.KRun

end
-- ==== Proof.ChainR.lean ====
/-
  The reference's computation as named stages, for any float values.

  A layer takes the node features `x` and the edge list: the neighbour sum `agg x` adds, into each node's row, the
  rows of `x` at the sources of the edges that end at the node (a gather of the source rows, then a scatter-add at
  the destinations); `den` is the number of edges ending at the node, raised to 1 where it is below 1, kept as a
  one-column matrix. The layer's value is
  `max ((agg x / den) · Wlᵀ + bl + x · Wrᵀ, 0)`, and the head's `x · Woutᵀ + bout`. Three layers feed the head.
  The neighbour sum and the divisor enter a layer as arguments (`layerOf`), so that a statement about one layer can
  be made for any neighbour sum.
-/
import proofs.«102709_j34041910788824_1_alg».proof.Proof.Gen.ReferenceIdeal

noncomputable section

namespace Cert.Sage.R

open Idealize.ShloMosaic Cert.ReferenceIdeal Cert.ReferenceIdeal.Gen

variable {F : FTy → Type} [FloatOps F]

/-- The edges' source nodes: row 0 of the edge list. -/
def srcRow (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The edges' destination nodes: row 1 of the edge list. -/
def dstRow (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- The gather's start indices: a negative source counts from the end (50000 is added), as a one-column matrix. -/
def srcIdx (ei : (⟨S2x800000, .i32⟩ : BufTy).Contents (Elt F)) : (⟨S800000x1, .i32⟩ : BufTy).Contents (Elt F) :=
  broadcastInDim S800000x1 ![0] bcast_S800000_S800000x1_0
    (select (cmpi .slt (srcRow ei) (broadcastInDim S800000 ![] bcast_S_S800000 (constantI S_ 32 0#32)))
      (addi (srcRow ei) (broadcastInDim S800000 ![] bcast_S_S800000 (constantI S_ 32 50000#32))) (srcRow ei))

/-- The scatter's indices: the destinations as a one-column matrix. -/
def dstIdx (ei : (⟨S2x800000, .i32⟩ : BufTy).Contents (Elt F)) : (⟨S800000x1, .i32⟩ : BufTy).Contents (Elt F) :=
  broadcastInDim S800000x1 ![0] bcast_S800000_S800000x1_0 (dstRow ei)

/-- The neighbour sum: into node `n`'s row, the rows of `x` at the sources of the edges ending at `n`. -/
def agg (x : FVec F S50000x128 .f32) (ei : (⟨S2x800000, .i32⟩ : BufTy).Contents (Elt F)) : FVec F S50000x128 .f32 :=
  Host.scatterAdd scatter_S50000x128_S800000x1_S800000x128_1_0_0_1
    (broadcastInDim S50000x128 ![] bcast_S_S50000x128 (constant S_ .f32 0x00000000#32)) (dstIdx ei)
    (Host.gather gather_S50000x128_S800000x1_S800000x128_1_0_n_n_0_1_1128 x (srcIdx ei))

/-- The divisor: the number of edges ending at each node, at least 1, as a one-column matrix. -/
def den (ei : (⟨S2x800000, .i32⟩ : BufTy).Contents (Elt F)) : FVec F S50000x1 .f32 :=
  maximumf
    (Host.scatterAdd scatter_S50000x1_S800000x1_S800000x1_1_0_0_1
      (broadcastInDim S50000x1 ![] bcast_S_S50000x1 (constant S_ .f32 0x00000000#32)) (dstIdx ei)
      (broadcastInDim S800000x1 ![] bcast_S_S800000x1 (constant S_ .f32 0x3F800000#32)))
    (broadcastInDim S50000x1 ![] bcast_S_S50000x1 (constant S_ .f32 0x3F800000#32))

/-- Layer `i`'s matrix out of a stack of three. -/
def mat0 (W : FVec F S3x128x128 .f32) : FVec F S128x128 .f32 :=
  shapeCast _ (extractStridedSlice S1x128x128 ![0, 0, 0] W slices_S3x128x128_S1x128x128_0_0_0) shapeCasts_S1x128x128_S128x128
def mat1 (W : FVec F S3x128x128 .f32) : FVec F S128x128 .f32 :=
  shapeCast _ (extractStridedSlice S1x128x128 ![1, 0, 0] W slices_S3x128x128_S1x128x128_1_0_0) shapeCasts_S1x128x128_S128x128
def mat2 (W : FVec F S3x128x128 .f32) : FVec F S128x128 .f32 :=
  shapeCast _ (extractStridedSlice S1x128x128 ![2, 0, 0] W slices_S3x128x128_S1x128x128_2_0_0) shapeCasts_S1x128x128_S128x128

/-- Layer `i`'s bias row out of a stack of three. -/
def row0 (b : FVec F S3x128 .f32) : FVec F S128 .f32 :=
  shapeCast _ (extractStridedSlice S1x128 ![0, 0] b slices_S3x128_S1x128_0_0) shapeCasts_S1x128_S128
def row1 (b : FVec F S3x128 .f32) : FVec F S128 .f32 :=
  shapeCast _ (extractStridedSlice S1x128 ![1, 0] b slices_S3x128_S1x128_1_0) shapeCasts_S1x128_S128
def row2 (b : FVec F S3x128 .f32) : FVec F S128 .f32 :=
  shapeCast _ (extractStridedSlice S1x128 ![2, 0] b slices_S3x128_S1x128_2_0) shapeCasts_S1x128_S128

/-- One layer from a neighbour sum `A` and a divisor column `D`: `max ((A / D) · Wᵀ + b + x · Wrᵀ, 0)`. -/
def layerOf (A : FVec F S50000x128 .f32) (D : FVec F S50000x1 .f32) (x : FVec F S50000x128 .f32)
    (W : FVec F S128x128 .f32) (b : FVec F S128 .f32) (Wr : FVec F S128x128 .f32) : FVec F S50000x128 .f32 :=
  maximumf
    (addf
      (addf
        (Host.dotGeneral dot_S50000x128_S128x128_S50000x128_1_0_0_1_n_n none
          (Host.divf A (broadcastInDim S50000x128 ![0, 1] bcast_S50000x1_S50000x128_0_1 D))
          (transpose S128x128 [1, 0] W transposes_S128x128_S128x128_1_0))
        (broadcastInDim S50000x128 ![0, 1] bcast_S1x128_S50000x128_0_1 (broadcastInDim S1x128 ![1] bcast_S128_S1x128_1 b)))
      (Host.dotGeneral dot_S50000x128_S128x128_S50000x128_1_0_0_1_n_n none x
        (transpose S128x128 [1, 0] Wr transposes_S128x128_S128x128_1_0)))
    (broadcastInDim S50000x128 ![] bcast_S_S50000x128 (constant S_ .f32 0x00000000#32))

/-- One layer of the reference. -/
def layer (x : FVec F S50000x128 .f32) (ei : (⟨S2x800000, .i32⟩ : BufTy).Contents (Elt F))
    (W : FVec F S128x128 .f32) (b : FVec F S128 .f32) (Wr : FVec F S128x128 .f32) : FVec F S50000x128 .f32 :=
  layerOf (agg x ei) (den ei) x W b Wr

/-- The head: `x · Woutᵀ + bout`. -/
def head (x : FVec F S50000x128 .f32) (Wout : FVec F S24x128 .f32) (bout : FVec F S24 .f32) : FVec F S50000x24 .f32 :=
  addf
    (Host.dotGeneral dot_S50000x128_S128x24_S50000x24_1_0_0_1_n_n none x (transpose S128x24 [1, 0] Wout transposes_S24x128_S128x24_1_0))
    (broadcastInDim S50000x24 ![0, 1] bcast_S1x24_S50000x24_0_1 (broadcastInDim S1x24 ![1] bcast_S24_S1x24_1 bout))

/-- The whole reference: three layers, then the head. -/
def whole (x : FVec F S50000x128 .f32) (ei : (⟨S2x800000, .i32⟩ : BufTy).Contents (Elt F)) (Wl : FVec F S3x128x128 .f32)
    (bl : FVec F S3x128 .f32) (Wr : FVec F S3x128x128 .f32) (Wout : FVec F S24x128 .f32) (bout : FVec F S24 .f32) :
    FVec F S50000x24 .f32 :=
  head (layer (layer (layer x ei (mat0 Wl) (row0 bl) (mat0 Wr)) ei (mat1 Wl) (row1 bl) (mat1 Wr)) ei (mat2 Wl) (row2 bl) (mat2 Wr))
    Wout bout

end Cert.Sage.R

end
-- ==== Proof.RefTerm.lean ====
/-
  The reference's run ends at its stages composed.

  The generated run of the reference states its result as one long term of the arguments' launch contents; that
  term is the three layers and the head of `R.whole`, written out.
-/
import proofs.«102709_j34041910788824_1_alg».proof.Proof.Gen.ReferenceIdeal.Run
import proofs.«102709_j34041910788824_1_alg».proof.Proof.ChainR

noncomputable section

namespace Cert.Sage.RefTerm

open Cert.ReferenceIdeal Cert.ReferenceIdeal.Gen Cert.ReferenceIdeal.Value
open Idealize.ShloMosaic Idealize.ShloMosaic.TcCoe Idealize.SL.Sem

variable {F : FTy → Type} [FloatOps F]

set_option maxRecDepth 16384 in
set_option maxHeartbeats 2000000 in
/-- The reference's result term is its stages composed on the arguments' launch contents. -/
theorem res_eq (m : (ℓ : Loc nD τ sig) → Buf (Elt F) ℓ) (c : Dev nD) :
    res_main_v107 (F := F) m c
      = R.whole (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold res_main_v107
  rfl

end Cert.Sage.RefTerm

end
-- ==== Proof.ChainK.lean ====
/-
  The kernel program's computation as named stages, for any float values, with the four pipelined regions'
  whole-array functions as parameters.

  The host lines compute the neighbour sum `agg x` exactly as the reference does, but the divisor once, as a vector:
  `inv` is `1 / max (count, 1)` per node, and a layer hands its region the neighbour sum TIMES `inv` (spread over
  the row), the features, the two matrices transposed and the bias as a one-row matrix. The head's region takes the
  features, `Wout` transposed and `bout` as a one-row matrix.
-/
import proofs.«102709_j34041910788824_1_alg».proof.Proof.Gen.KernelIdeal

noncomputable section

namespace Cert.Sage.K

open Idealize.ShloMosaic Cert.KernelIdeal Cert.KernelIdeal.Gen

variable {F : FTy → Type} [FloatOps F]

/-- The edges' source nodes: row 0 of the edge list. -/
def srcRow (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The edges' destination nodes: row 1 of the edge list. -/
def dstRow (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- The gather's start indices: a negative source counts from the end (50000 is added), as a one-column matrix. -/
def srcIdx (ei : (⟨S2x800000, .i32⟩ : BufTy).Contents (Elt F)) : (⟨S800000x1, .i32⟩ : BufTy).Contents (Elt F) :=
  broadcastInDim S800000x1 ![0] bcast_S800000_S800000x1_0
    (select (cmpi .slt (srcRow ei) (broadcastInDim S800000 ![] bcast_S_S800000 (constantI S_ 32 0#32)))
      (addi (srcRow ei) (broadcastInDim S800000 ![] bcast_S_S800000 (constantI S_ 32 50000#32))) (srcRow ei))

/-- The scatter's indices: the destinations as a one-column matrix. -/
def dstIdx (ei : (⟨S2x800000, .i32⟩ : BufTy).Contents (Elt F)) : (⟨S800000x1, .i32⟩ : BufTy).Contents (Elt F) :=
  broadcastInDim S800000x1 ![0] bcast_S800000_S800000x1_0 (dstRow ei)

/-- The neighbour sum: into node `n`'s row, the rows of `x` at the sources of the edges ending at `n`. -/
def agg (x : FVec F S50000x128 .f32) (ei : (⟨S2x800000, .i32⟩ : BufTy).Contents (Elt F)) : FVec F S50000x128 .f32 :=
  Host.scatterAdd scatter_S50000x128_S800000x1_S800000x128_1_0_0_1
    (broadcastInDim S50000x128 ![] bcast_S_S50000x128 (constant S_ .f32 0x00000000#32)) (dstIdx ei)
    (Host.gather gather_S50000x128_S800000x1_S800000x128_1_0_n_n_0_1_1128 x (srcIdx ei))

/-- The number of edges ending at each node, at least 1, as a vector. -/
def cnt (ei : (⟨S2x800000, .i32⟩ : BufTy).Contents (Elt F)) : FVec F S50000 .f32 :=
  maximumf
    (Host.scatterAdd scatter_S50000_S800000x1_S800000_n_0_0_1
      (broadcastInDim S50000 ![] bcast_S_S50000 (constant S_ .f32 0x00000000#32)) (dstIdx ei)
      (broadcastInDim S800000 ![] bcast_S_S800000 (constant S_ .f32 0x3F800000#32)))
    (broadcastInDim S50000 ![] bcast_S_S50000 (constant S_ .f32 0x3F800000#32))

/-- Its reciprocal, `1 / max (count, 1)`, as a vector. -/
def inv (ei : (⟨S2x800000, .i32⟩ : BufTy).Contents (Elt F)) : FVec F S50000 .f32 :=
  Host.divf (broadcastInDim S50000 ![] bcast_S_S50000 (constant S_ .f32 0x3F800000#32)) (cnt ei)

/-- Layer `i`'s matrix out of a stack of three. -/
def mat0 (W : FVec F S3x128x128 .f32) : FVec F S128x128 .f32 :=
  shapeCast _ (extractStridedSlice S1x128x128 ![0, 0, 0] W slices_S3x128x128_S1x128x128_0_0_0) shapeCasts_S1x128x128_S128x128
def mat1 (W : FVec F S3x128x128 .f32) : FVec F S128x128 .f32 :=
  shapeCast _ (extractStridedSlice S1x128x128 ![1, 0, 0] W slices_S3x128x128_S1x128x128_1_0_0) shapeCasts_S1x128x128_S128x128
def mat2 (W : FVec F S3x128x128 .f32) : FVec F S128x128 .f32 :=
  shapeCast _ (extractStridedSlice S1x128x128 ![2, 0, 0] W slices_S3x128x128_S1x128x128_2_0_0) shapeCasts_S1x128x128_S128x128

/-- Layer `i`'s bias row out of a stack of three. -/
def row0 (b : FVec F S3x128 .f32) : FVec F S128 .f32 :=
  shapeCast _ (extractStridedSlice S1x128 ![0, 0] b slices_S3x128_S1x128_0_0) shapeCasts_S1x128_S128
def row1 (b : FVec F S3x128 .f32) : FVec F S128 .f32 :=
  shapeCast _ (extractStridedSlice S1x128 ![1, 0] b slices_S3x128_S1x128_1_0) shapeCasts_S1x128_S128
def row2 (b : FVec F S3x128 .f32) : FVec F S128 .f32 :=
  shapeCast _ (extractStridedSlice S1x128 ![2, 0] b slices_S3x128_S1x128_2_0) shapeCasts_S1x128_S128

/-- A layer region's function: the scaled neighbour sum, the features, `Wlᵀ`, the bias row, `Wrᵀ` to the new features. -/
abbrev SageFn (F : FTy → Type) : Type :=
  FVec F S50000x128 .f32 → FVec F S50000x128 .f32 → FVec F S128x128 .f32 → FVec F S1x128 .f32 → FVec F S128x128 .f32 →
    FVec F S50000x128 .f32

/-- The head region's function: the features, `Woutᵀ`, the bias row to the result. -/
abbrev HeadFn (F : FTy → Type) : Type :=
  FVec F S50000x128 .f32 → FVec F S128x24 .f32 → FVec F S1x24 .f32 → FVec F S50000x24 .f32

/-- One layer from a neighbour sum `A` and a reciprocal vector `I`: the region's function `f` of `A · I` (the
    reciprocal spread over each row), the features, and the layer's parameters laid out as the region takes them. -/
def layerOf (f : SageFn F) (A : FVec F S50000x128 .f32) (I : FVec F S50000 .f32) (x : FVec F S50000x128 .f32)
    (W : FVec F S128x128 .f32) (b : FVec F S128 .f32) (Wr : FVec F S128x128 .f32) : FVec F S50000x128 .f32 :=
  f (mulf A (broadcastInDim S50000x128 ![0, 1] bcast_S50000x1_S50000x128_0_1 (broadcastInDim S50000x1 ![0] bcast_S50000_S50000x1_0 I)))
    x (transpose S128x128 [1, 0] W transposes_S128x128_S128x128_1_0) (shapeCast S1x128 b shapeCasts_S128_S1x128)
    (transpose S128x128 [1, 0] Wr transposes_S128x128_S128x128_1_0)

/-- One layer of the kernel program. -/
def layer (f : SageFn F) (x : FVec F S50000x128 .f32) (ei : (⟨S2x800000, .i32⟩ : BufTy).Contents (Elt F))
    (W : FVec F S128x128 .f32) (b : FVec F S128 .f32) (Wr : FVec F S128x128 .f32) : FVec F S50000x128 .f32 :=
  layerOf f (agg x ei) (inv ei) x W b Wr

/-- The head as the kernel program lays it out. -/
def head (g : HeadFn F) (x : FVec F S50000x128 .f32) (Wout : FVec F S24x128 .f32) (bout : FVec F S24 .f32) : FVec F S50000x24 .f32 :=
  g x (transpose S128x24 [1, 0] Wout transposes_S24x128_S128x24_1_0) (shapeCast S1x24 bout shapeCasts_S24_S1x24)

/-- The whole kernel program: three layers, then the head. -/
def whole (f0 f1 f2 : SageFn F) (g : HeadFn F) (x : FVec F S50000x128 .f32) (ei : (⟨S2x800000, .i32⟩ : BufTy).Contents (Elt F))
    (Wl : FVec F S3x128x128 .f32) (bl : FVec F S3x128 .f32) (Wr : FVec F S3x128x128 .f32) (Wout : FVec F S24x128 .f32)
    (bout : FVec F S24 .f32) : FVec F S50000x24 .f32 :=
  head g (layer f2 (layer f1 (layer f0 x ei (mat0 Wl) (row0 bl) (mat0 Wr)) ei (mat1 Wl) (row1 bl) (mat1 Wr)) ei (mat2 Wl) (row2 bl) (mat2 Wr))
    Wout bout

end Cert.Sage.K

end
-- ==== Proof.Bridge.lean ====
/-
  The stages the two programs share are the same functions.

  The neighbour sum, the layers' matrices and bias rows are computed by the same operations on the same shapes in the
  kernel program and in the reference; only the names of the shapes and of the side conditions differ. For any float
  values they are equal as they stand.
-/
import proofs.«102709_j34041910788824_1_alg».proof.Proof.ChainK
import proofs.«102709_j34041910788824_1_alg».proof.Proof.ChainR

noncomputable section

namespace Cert.Sage.Bridge

open Idealize.ShloMosaic

variable {F : FTy → Type} [FloatOps F]

theorem dstIdx_eq (ei : (⟨Cert.KernelIdeal.S2x800000, .i32⟩ : BufTy).Contents (Elt F)) : K.dstIdx ei = R.dstIdx ei := rfl
theorem srcIdx_eq (ei : (⟨Cert.KernelIdeal.S2x800000, .i32⟩ : BufTy).Contents (Elt F)) : K.srcIdx ei = R.srcIdx ei := rfl
theorem agg_eq (x : FVec F Cert.KernelIdeal.S50000x128 .f32) (ei : (⟨Cert.KernelIdeal.S2x800000, .i32⟩ : BufTy).Contents (Elt F)) :
    K.agg x ei = R.agg x ei := rfl
theorem mat0_eq (W : FVec F Cert.KernelIdeal.S3x128x128 .f32) : K.mat0 W = R.mat0 W := rfl
theorem mat1_eq (W : FVec F Cert.KernelIdeal.S3x128x128 .f32) : K.mat1 W = R.mat1 W := rfl
theorem mat2_eq (W : FVec F Cert.KernelIdeal.S3x128x128 .f32) : K.mat2 W = R.mat2 W := rfl
theorem row0_eq (b : FVec F Cert.KernelIdeal.S3x128 .f32) : K.row0 b = R.row0 b := rfl
theorem row1_eq (b : FVec F Cert.KernelIdeal.S3x128 .f32) : K.row1 b = R.row1 b := rfl
theorem row2_eq (b : FVec F Cert.KernelIdeal.S3x128 .f32) : K.row2 b = R.row2 b := rfl

end Cert.Sage.Bridge

end
-- ==== Proof.Spec.lean ====
/-
  The pipelined regions' whole-array functions on the extended reals, index by index.

  A layer's region takes a scaled neighbour sum `a`, the features `x`, two 128×128 matrices and a one-row bias, and
  leaves at `(n, h)` the value `max (∑ₖ a(n,k)·wl(k,h) + ∑ₖ x(n,k)·wr(k,h) + b(0,h), 0)`: every row block of 5000 rows is
  computed from the same rows of `a` and `x` and the whole of the small operands, so the blocks are restrictions of
  this one function. The head's region leaves `∑ₖ x(n,k)·w(k,p) + b(0,p)`.
-/
import Idealize.ShloMosaic.PureOps.Ideal
import Idealize.ShloMosaic.Lib.ValueIdx

noncomputable section

namespace Cert.Sage.Spec

open Idealize.ShloMosaic Idealize.ShloMosaic.ValueIdx

/-- What a layer's region leaves in its output array. The zero of the final maximum is kept as the zero word. -/
def sage (a x : FVec Ideal (⟨2, ![50000, 128]⟩ : Shape) .f32) (wl : FVec Ideal (⟨2, ![128, 128]⟩ : Shape) .f32)
    (b : FVec Ideal (⟨2, ![1, 128]⟩ : Shape) .f32) (wr : FVec Ideal (⟨2, ![128, 128]⟩ : Shape) .f32) :
    FVec Ideal (⟨2, ![50000, 128]⟩ : Shape) .f32 :=
  fun j => max (((∑ k : Fin 128, a (ix2 (j 0) k) * wl (ix2 k (j 1))) + (∑ k : Fin 128, x (ix2 (j 0) k) * wr (ix2 k (j 1))))
    + b (ix2 (0 : Fin 1) (j 1))) (Ideal.ofBits .f32 0x00000000#32)

/-- What the head's region leaves in its output array. -/
def headFn (x : FVec Ideal (⟨2, ![50000, 128]⟩ : Shape) .f32) (w : FVec Ideal (⟨2, ![128, 24]⟩ : Shape) .f32)
    (b : FVec Ideal (⟨2, ![1, 24]⟩ : Shape) .f32) : FVec Ideal (⟨2, ![50000, 24]⟩ : Shape) .f32 :=
  fun j => (∑ k : Fin 128, x (ix2 (j 0) k) * w (ix2 k (j 1))) + b (ix2 (0 : Fin 1) (j 1))

end Cert.Sage.Spec

end
-- ==== Proof.KFold.lean ====
/-
  The kernel program's boundary contents read as ONE line of operations.

  Each pipelined region is read as one more operation of the host program: it writes its output array only, with a
  function of its input arrays' contents at the region's entry. Given, per region, that the region's exit contents
  are that operation's result on its entry contents (hypotheses `h0 … h3`, for any region functions), the contents
  of the result buffer at the last boundary are the program's stages composed (`K.whole`) on the launch contents of
  the arguments.
-/
import proofs.«102709_j34041910788824_1_alg».proof.Proof.Gen.KernelIdeal.Frame
import proofs.«102709_j34041910788824_1_alg».proof.Proof.ChainK
import Idealize.ShloMosaic.Lib.StableHlo.Run

set_option maxRecDepth 16384

noncomputable section

namespace Cert.Sage.KFold

open Cert.KernelIdeal Cert.KernelIdeal.Gen
open Idealize.ShloMosaic Idealize.ShloMosaic.TcCoe Idealize.ShloMosaic.StableHlo Idealize.SL.Sem

variable {F : FTy → Type} [FloatOps F]

/-- Region 0 as an operation: the first layer, writing `main_v34`. -/
def rop0 (f : K.SageFn F) : HloOp τ sig (Elt F) :=
  nary ![main_v24, main_arg0, main_v31, main_v33, main_v32] main_v34 (fun u => f (u 0) (u 1) (u 2) (u 3) (u 4))
/-- Region 1 as an operation: the second layer, writing `main_v57`. -/
def rop1 (f : K.SageFn F) : HloOp τ sig (Elt F) :=
  nary ![main_v47, main_v34, main_v54, main_v56, main_v55] main_v57 (fun u => f (u 0) (u 1) (u 2) (u 3) (u 4))
/-- Region 2 as an operation: the third layer, writing `main_v80`. -/
def rop2 (f : K.SageFn F) : HloOp τ sig (Elt F) :=
  nary ![main_v70, main_v57, main_v77, main_v79, main_v78] main_v80 (fun u => f (u 0) (u 1) (u 2) (u 3) (u 4))
/-- Region 3 as an operation: the head, writing `main_v83`. -/
def rop3 (g : K.HeadFn F) : HloOp τ sig (Elt F) :=
  ternary main_v80 main_v81 main_v82 main_v83 g

/-! Each region operation at its own output buffer, and at any other buffer. -/

theorem rop0_at (f : K.SageFn F) (V : Valuation τ sig (Elt F)) :
    (rop0 f).result V (no_index (Proc.devRef .tc main_v34))
      = f (V (Proc.devRef .tc main_v24)) (V (Proc.devRef .tc main_arg0)) (V (Proc.devRef .tc main_v31))
          (V (Proc.devRef .tc main_v33)) (V (Proc.devRef .tc main_v32)) := by
  unfold rop0; rw [nary_result]; rfl
theorem rop0_ne (f : K.SageFn F) (V : Valuation τ sig (Elt F)) {r : Ref sig .tc} (h : r ≠ main_v34) :
    (rop0 f).result V (no_index (Proc.devRef .tc r)) = V (Proc.devRef .tc r) := by
  unfold rop0; rw [nary_result_ne]; exact h
theorem rop1_at (f : K.SageFn F) (V : Valuation τ sig (Elt F)) :
    (rop1 f).result V (no_index (Proc.devRef .tc main_v57))
      = f (V (Proc.devRef .tc main_v47)) (V (Proc.devRef .tc main_v34)) (V (Proc.devRef .tc main_v54))
          (V (Proc.devRef .tc main_v56)) (V (Proc.devRef .tc main_v55)) := by
  unfold rop1; rw [nary_result]; rfl
theorem rop1_ne (f : K.SageFn F) (V : Valuation τ sig (Elt F)) {r : Ref sig .tc} (h : r ≠ main_v57) :
    (rop1 f).result V (no_index (Proc.devRef .tc r)) = V (Proc.devRef .tc r) := by
  unfold rop1; rw [nary_result_ne]; exact h
theorem rop2_at (f : K.SageFn F) (V : Valuation τ sig (Elt F)) :
    (rop2 f).result V (no_index (Proc.devRef .tc main_v80))
      = f (V (Proc.devRef .tc main_v70)) (V (Proc.devRef .tc main_v57)) (V (Proc.devRef .tc main_v77))
          (V (Proc.devRef .tc main_v79)) (V (Proc.devRef .tc main_v78)) := by
  unfold rop2; rw [nary_result]; rfl
theorem rop2_ne (f : K.SageFn F) (V : Valuation τ sig (Elt F)) {r : Ref sig .tc} (h : r ≠ main_v80) :
    (rop2 f).result V (no_index (Proc.devRef .tc r)) = V (Proc.devRef .tc r) := by
  unfold rop2; rw [nary_result_ne]; exact h
theorem rop3_at (g : K.HeadFn F) (V : Valuation τ sig (Elt F)) :
    (rop3 g).result V (no_index (Proc.devRef .tc main_v83))
      = g (V (Proc.devRef .tc main_v80)) (V (Proc.devRef .tc main_v81)) (V (Proc.devRef .tc main_v82)) := by
  unfold rop3; rw [ternary_result]
theorem rop3_ne (g : K.HeadFn F) (V : Valuation τ sig (Elt F)) {r : Ref sig .tc} (h : r ≠ main_v83) :
    (rop3 g).result V (no_index (Proc.devRef .tc r)) = V (Proc.devRef .tc r) := by
  unfold rop3; rw [ternary_result_ne]; exact h

variable (m : (ℓ : Loc nD τ sig) → Buf (Elt F) ℓ) (ρ : Dev nD → PrngReg)

set_option maxHeartbeats 4000000 in
/-- The result buffer at the last boundary holds the stages composed on the arguments' launch contents. -/
theorem result_eq (f0 f1 f2 : K.SageFn F) (g : K.HeadFn F) (c : Dev nD)
    (h0 : W2 m ρ c = (rop0 f0).result (W1 m ρ c)) (h1 : W4 m ρ c = (rop1 f1).result (W3 m ρ c))
    (h2 : W6 m ρ c = (rop2 f2).result (W5 m ρ c)) (h3 : W8 m ρ c = (rop3 g).result (W7 m ρ c)) :
    W8 m ρ c (Proc.devRef .tc main_v83)
      = K.whole f0 f1 f2 g (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [h3]; dsimp only [W7]
  rw [h2]; dsimp only [W5]
  rw [h1]; dsimp only [W3]
  rw [h0]; dsimp only [W1, W0]
  simp (disch := decide) only [hostOps0, hostOps1, hostOps2, hostOps3, after_cons, after_nil,
      nullary_result', unary_result', binary_result', ternary_result', reshape_result',
      rop0_at, rop1_at, rop2_at, rop3_at, rop0_ne, rop1_ne, rop2_ne, rop3_ne,
      nullary_result_ne', unary_result_ne', binary_result_ne', ternary_result_ne', reshape_result_ne']
  rfl

end Cert.Sage.KFold

end
-- ==== Proof.LibRegionOp.lean ====
/-
  A pipelined region with one output array, read as one more line of the host program around it.

  A region's exit contents are its entry contents with the pipeline's arrays replaced by what the pipeline leaves in
  them. When every array but one is left as the region found it, and that one holds the value a host operation
  writing only that array would have computed from the entry contents, the exit contents ARE that operation's
  result on the entry contents. A program of several regions among host lines then reads, buffer by buffer, as one
  straight line of operations.
-/
import Idealize.ShloMosaic.Lib.Pipeline.FrameSuffix

noncomputable section

namespace Cert.RegionOp

open Idealize.ShloMosaic Idealize.ShloMosaic.Pipeline Idealize.ShloMosaic.TcCoe

variable {nD : Nat} {τ : Topo} {sig : RefSig} {Val : EltTy → Type}

/-- The exit contents of a region whose arrays `A` agree with the entry contents `V` except at window `o`'s array,
    where they hold what `op` — an operation writing that array only — computes from `V`: they are `op.result V`,
    at every buffer of the device. -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (o : Fin W) (op : HloOp τ sig Val)
    (hw : op.writes = {Proc.devRef .tc (arrRef win o)})
    (hin : ∀ w, w ≠ o → A w = V (Proc.devRef .tc (arrRef win w)))
    (hout : A o = op.result V (Proc.devRef .tc (arrRef win o))) :
    withArrays win c V A = op.result V := by
  funext b
  by_cases h : ∃ w, Proc.devRef .tc (arrRef win w) = b
  · obtain ⟨w, rfl⟩ := h
    rw [withArrays_arr win hinj c V A w]
    by_cases hwo : w = o
    · subst hwo; exact hout
    · rw [hin w hwo]
      refine (op.result_of_not_mem V ?_).symm
      rw [hw, Finset.mem_singleton]
      exact fun e => hwo (hinj (Proc.devRef_injective _ e))
  · have hb : withArrays win c V A b = V b := by unfold withArrays; rw [dif_neg h]
    rw [hb]
    refine (op.result_of_not_mem V ?_).symm
    rw [hw, Finset.mem_singleton]
    exact fun e => h ⟨o, e.symm⟩

end Cert.RegionOp

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.RegionSage.lean ====
/-
  The three layer regions' output arrays on the extended reals.

  Each layer's region runs ten points; point `t` reads rows `5000 t … 5000 t + 4999` of the scaled neighbour sum and
  of the features, the whole of the two 128×128 matrices and of the one-row bias, and writes back the same rows of the
  output. At an element the block's function is two 128-term products added, the bias row added, and the maximum with
  zero; narrowing to bf16 is the identity on the extended reals, and the products accumulate into zero. So every
  block is the restriction to its rows of one function of the five arrays, the ten row blocks cover the array, and the
  output array ends as that function.
-/
import proofs.«102709_j34041910788824_1_alg».proof.Proof.Gen.KernelIdeal.Frame
import proofs.«102709_j34041910788824_1_alg».proof.Proof.Spec
import proofs.«102709_j34041910788824_1_alg».proof.Proof.LibPlainDot
import Idealize.ShloMosaic.Lib.ValueIdx
import Idealize.ShloMosaic.Lib.Pipeline.Value

noncomputable section

namespace Cert.Sage.Reg

open Cert.KernelIdeal Cert.KernelIdeal.Gen Idealize.ShloMosaic Idealize.ShloMosaic.TcCoe Idealize.SL.Sem
open Idealize.ShloMosaic.ValueIdx

/-! ## The block function, shared by the three layers -/

/-- The zero offset of a whole-block access. -/
theorem hz : (![0, 0] : Fin 2 → Nat) = fun _ => 0 := funext fun a => by fin_cases a <;> rfl

/-- The first layer's block function at an element: two 128-term products of the block's rows with the two matrices,
    added, the bias row added, and the maximum with zero. -/
theorem pay0_apply (v0 v3 : Vec Ideal S5000x128 .f32) (v5 v8 : Vec Ideal S128x128 .f32) (v14 : Vec Ideal S1x128 .f32)
    (p : Fin 5000) (q : Fin 128) :
    k0_pay1 (F := Ideal) v0 v3 v5 v8 v14 (ix2 p q)
      = max (((∑ k : Fin 128, v0 (ix2 p k) * v5 (ix2 k q)) + ∑ k : Fin 128, v3 (ix2 p k) * v8 (ix2 k q)) + v14 (ix2 0 q))
          (Ideal.ofBits .f32 0x00000000#32) := by
  unfold k0_pay1
  simp only [shapeCast_self]
  rw [maximumf_apply, addf_apply, addf_apply, broadcast_apply]
  refine congrArg₂ max (congrArg₂ (· + ·) (congrArg₂ (· + ·) ?_ ?_) ?_) rfl
  · exact Cert.PlainDot.matmul_zero_apply 5000 128 128 none (truncf .bf16 v0 bitsLt_bf16_f32) (truncf .bf16 v5 bitsLt_bf16_f32) (ix2 p q)
  · exact Cert.PlainDot.matmul_zero_apply 5000 128 128 none (truncf .bf16 v3 bitsLt_bf16_f32) (truncf .bf16 v8 bitsLt_bf16_f32) (ix2 p q)
  · refine broadcastTo_apply v14 broadcasts_S1x128_S5000x128 (ix2 p q) (ix2 0 q) fun a => ?_
    match a with
    | ⟨0, _⟩ => rfl
    | ⟨1, _⟩ => rfl

/-- A row block of the layer function: when the two row-blocked operands are rows `ρ p` of the arrays `a` and `x` and
    the small operands are the whole matrices and the bias row, the block function at `(p, q)` is the layer function at
    `(ρ p, q)`. -/
theorem block0_apply (ρ : Fin 5000 → Fin 50000)
    (a x : FVec Ideal S50000x128 .f32) (wl wr : FVec Ideal S128x128 .f32) (b : FVec Ideal S1x128 .f32)
    (x0 x1 : Vec Ideal S5000x128 .f32) (x2 x4 : Vec Ideal S128x128 .f32) (x3 : Vec Ideal S1x128 .f32)
    (h0 : ∀ p q, x0 (ix2 p q) = a (ix2 (ρ p) q)) (h1 : ∀ p q, x1 (ix2 p q) = x (ix2 (ρ p) q))
    (h2 : ∀ k q, x2 (ix2 k q) = wl (ix2 k q)) (h4 : ∀ k q, x4 (ix2 k q) = wr (ix2 k q))
    (h3 : ∀ q, x3 (ix2 0 q) = b (ix2 0 q)) (p : Fin 5000) (q : Fin 128) :
    k0_pay1 (F := Ideal) x0 x1 x2 x4 x3 (ix2 p q) = Cert.Sage.Spec.sage a x wl b wr (ix2 (ρ p) q) := by
  rw [pay0_apply]
  simp only [h0, h1, h2, h3, h4]
  rfl

/-- The same at any element of the block and any element of the array that sits at row `ρ` of the block element's row
    and at its column. -/
theorem block0_at (ρ : Fin 5000 → Fin 50000)
    (a x : FVec Ideal S50000x128 .f32) (wl wr : FVec Ideal S128x128 .f32) (b : FVec Ideal S1x128 .f32)
    (x0 x1 : Vec Ideal S5000x128 .f32) (x2 x4 : Vec Ideal S128x128 .f32) (x3 : Vec Ideal S1x128 .f32)
    (h0 : ∀ p q, x0 (ix2 p q) = a (ix2 (ρ p) q)) (h1 : ∀ p q, x1 (ix2 p q) = x (ix2 (ρ p) q))
    (h2 : ∀ k q, x2 (ix2 k q) = wl (ix2 k q)) (h4 : ∀ k q, x4 (ix2 k q) = wr (ix2 k q))
    (h3 : ∀ q, x3 (ix2 0 q) = b (ix2 0 q)) (j : S5000x128.Idx) (i : S50000x128.Idx) (hi : i = ix2 (ρ (j 0)) (j 1)) :
    k0_pay1 (F := Ideal) x0 x1 x2 x4 x3 j = Cert.Sage.Spec.sage a x wl b wr i := by
  rw [hi]
  exact (congrArg _ (eq_ix2 j)).trans (block0_apply ρ a x wl wr b x0 x1 x2 x4 x3 h0 h1 h2 h4 h3 (j 0) (j 1))

/-- Row `p` of the `n`-th block of 5000 rows, as a row of the array. -/
def row (n : Nat) (hn : n < 10) (p : Fin 5000) : Fin 50000 := ⟨n * 5000 + p.val, by have := p.isLt; omega⟩

/-! ## The first layer -/

/-- The first layer's index maps, decided over the ten points: the two row-blocked inputs move with the output's row
    block, which is the point's number; every other block index is zero. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem lt0 (t : Fin cfg0.N) : t.val < 10 := Nat.lt_of_lt_of_eq t.isLt (show cfg0.N = 10 from N_0)

section Blocks0
variable (V : (c : Dev nD) → (b : Ref sig .tc) → Buf (Elt Ideal) ((c : Thread nD τ).loc b)) (c : Dev nD) (t : Fin cfg0.N)

/-- The scaled neighbour sum's block at point `t` is its rows `5000 t + p`. -/
theorem blk0_0 (p : Fin 5000) (q : Fin 128) :
    (iblk0 V c 0 t : Vec Ideal S5000x128 .f32) (ix2 p q)
      = (V c (Pipeline.arrRef spec0 0) : FVec Ideal S50000x128 .f32) (ix2 (row t.val (lt0 t) p) q) := by
  obtain ⟨e00, e01, -⟩ := idx0 t
  show V c (Pipeline.arrRef spec0 0) (((cfg0.win 0).blk t).view.emb (ix2 p q)) = _
  refine congrArg (V c (Pipeline.arrRef spec0 0)) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * q.val = q.val; omega

/-- The features' block at point `t` is their rows `5000 t + p`. -/
theorem blk0_1 (p : Fin 5000) (q : Fin 128) :
    (iblk0 V c 1 t : Vec Ideal S5000x128 .f32) (ix2 p q)
      = (V c (Pipeline.arrRef spec0 1) : FVec Ideal S50000x128 .f32) (ix2 (row t.val (lt0 t) p) q) := by
  obtain ⟨-, -, e10, e11, -⟩ := idx0 t
  show V c (Pipeline.arrRef spec0 1) (((cfg0.win 1).blk t).view.emb (ix2 p q)) = _
  refine congrArg (V c (Pipeline.arrRef spec0 1)) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * q.val = q.val; omega

/-- The first matrix's block at every point is the matrix. -/
theorem blk0_2 (k q : Fin 128) :
    (iblk0 V c 2 t : Vec Ideal S128x128 .f32) (ix2 k q) = (V c (Pipeline.arrRef spec0 2) : FVec Ideal S128x128 .f32) (ix2 k q) := by
  obtain ⟨-, -, -, -, e20, e21, -⟩ := idx0 t
  show V c (Pipeline.arrRef spec0 2) (((cfg0.win 2).blk t).view.emb (ix2 k q)) = _
  refine congrArg (V c (Pipeline.arrRef spec0 2)) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The bias row's block at every point is the row. -/
theorem blk0_3 (q : Fin 128) :
    (iblk0 V c 3 t : Vec Ideal S1x128 .f32) (ix2 (0 : Fin 1) q)
      = (V c (Pipeline.arrRef spec0 3) : FVec Ideal S1x128 .f32) (ix2 (0 : Fin 1) q) := by
  obtain ⟨-, -, -, -, -, -, e30, e31, -⟩ := idx0 t
  show V c (Pipeline.arrRef spec0 3) (((cfg0.win 3).blk t).view.emb (ix2 (0 : Fin 1) q : S1x128.Idx)) = _
  refine congrArg (V c (Pipeline.arrRef spec0 3)) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- The second matrix's block at every point is the matrix. -/
theorem blk0_4 (k q : Fin 128) :
    (iblk0 V c 4 t : Vec Ideal S128x128 .f32) (ix2 k q) = (V c (Pipeline.arrRef spec0 4) : FVec Ideal S128x128 .f32) (ix2 k q) := by
  obtain ⟨-, -, -, -, -, -, -, -, e40, e41, -⟩ := idx0 t
  show V c (Pipeline.arrRef spec0 4) (((cfg0.win 4).blk t).view.emb (ix2 k q)) = _
  refine congrArg (V c (Pipeline.arrRef spec0 4)) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- Where an element of the output's block at point `t` sits in the array: row `5000 t + ` its row, its column. -/
theorem emb0_5 (j : S5000x128.Idx) :
    (((cfg0.win 5).blk t).view.emb j : S50000x128.Idx) = ix2 (row t.val (lt0 t) (j 0)) (j 1) := by
  obtain ⟨-, -, -, -, -, -, -, -, -, -, e50, e51⟩ := idx0 t
  funext a; apply Fin.ext
  match a with
  | ⟨0, _⟩ => show win0_5.index t (0 : Fin 2) * 5000 + 1 * (j 0).val = t.val * 5000 + (j 0).val; omega
  | ⟨1, _⟩ => show win0_5.index t (1 : Fin 2) * 128 + 1 * (j 1).val = (j 1).val; omega

/-- What point `t` of the first layer writes back is rows `5000 t … 5000 t + 4999` of the layer function of the five
    arrays as the region finds them. -/
theorem flushed0 :
    (dat0 (F := Ideal) V c).flushed 5 t
      = ((cfg0.win 5).blk t).view.read (Elt Ideal)
          (Cert.Sage.Spec.sage (V c (Pipeline.arrRef spec0 0)) (V c (Pipeline.arrRef spec0 1)) (V c (Pipeline.arrRef spec0 2))
            (V c (Pipeline.arrRef spec0 3)) (V c (Pipeline.arrRef spec0 4))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  exact block0_at (row t.val (lt0 t)) _ _ _ _ _ _ _ _ _ _ (blk0_0 V c t) (blk0_1 V c t) (blk0_2 V c t) (blk0_4 V c t) (blk0_3 V c t) j _
    (emb0_5 t j)

end Blocks0

/-- An index of the array is in point `t`'s output block exactly when each coordinate is in the block's range. -/
theorem mem_blk0 (t : Fin cfg0.N) (i : S50000x128.Idx) :
    i ∈ ((cfg0.win 5).blk t).view.set
      ↔ ∀ a : Fin 2, win0_5.index t a * S5000x128.size a ≤ (i a).val ∧ (i a).val < win0_5.index t a * S5000x128.size a + S5000x128.size a := by
  show i ∈ ((View.whole main_v34).slice (win0_5.rect t)).set ↔ _
  rw [View.set_slice_whole, Rect.mem_set_unit]
  exact Iff.rfl

/-- Row `r` of the array is in the block of point `r / 5000`, which writes back. -/
theorem cover0 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 5000 < cfg0.N := by rw [show cfg0.N = 10 from N_0]; omega
  obtain ⟨-, -, -, -, -, -, -, -, -, -, e50, e51⟩ := idx0 ⟨(i 0).val / 5000, hN⟩
  have e50' : win0_5.index ⟨(i 0).val / 5000, hN⟩ (0 : Fin 2) = (i 0).val / 5000 := e50
  refine ⟨⟨(i 0).val / 5000, hN⟩, flush0_5 _, (mem_blk0 _ i).mpr fun a => ?_⟩
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    omega
  | ⟨1, _⟩ =>
    show win0_5.index ⟨(i 0).val / 5000, hN⟩ (1 : Fin 2) * 128 ≤ (i 1).val
      ∧ (i 1).val < win0_5.index ⟨(i 0).val / 5000, hN⟩ (1 : Fin 2) * 128 + 128
    omega

/-- THE FIRST LAYER'S OUTPUT ARRAY after its ten points: the layer function of the five arrays the region finds. -/
theorem region0 (V : (c : Dev nD) → (b : Ref sig .tc) → Buf (Elt Ideal) ((c : Thread nD τ).loc b)) (c : Dev nD) :
    (dat0 (F := Ideal) V c).arrAt 5 cfg0.N
      = Cert.Sage.Spec.sage (V c (Pipeline.arrRef spec0 0)) (V c (Pipeline.arrRef spec0 1)) (V c (Pipeline.arrRef spec0 2)) (V c (Pipeline.arrRef spec0 3)) (V c (Pipeline.arrRef spec0 4)) :=
  (dat0 (F := Ideal) V c).arrAt_eq_of_cover 5 _ (fun t _ => flushed0 V c t) cover0

/-- The second layer's block function is the first's: it differs by one more cast to the same shape. -/
theorem pay1_eq (v0 v3 : Vec Ideal S5000x128 .f32) (v6 v9 : Vec Ideal S128x128 .f32) (v15 : Vec Ideal S1x128 .f32) :
    k1_pay1 (F := Ideal) v0 v3 v6 v9 v15 = k0_pay1 (F := Ideal) v0 v3 v6 v9 v15 := by
  unfold k1_pay1 k0_pay1
  simp only [shapeCast_self]

/-! ## The second layer -/

/-- The second layer's index maps, decided over the ten points: the two row-blocked inputs move with the output's row
    block, which is the point's number; every other block index is zero. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt1 (t : Fin cfg1.N) : t.val < 10 := Nat.lt_of_lt_of_eq t.isLt (show cfg1.N = 10 from N_1)

section Blocks1
variable (V : (c : Dev nD) → (b : Ref sig .tc) → Buf (Elt Ideal) ((c : Thread nD τ).loc b)) (c : Dev nD) (t : Fin cfg1.N)

/-- The scaled neighbour sum's block at point `t` is its rows `5000 t + p`. -/
theorem blk1_0 (p : Fin 5000) (q : Fin 128) :
    (iblk1 V c 0 t : Vec Ideal S5000x128 .f32) (ix2 p q)
      = (V c (Pipeline.arrRef spec1 0) : FVec Ideal S50000x128 .f32) (ix2 (row t.val (lt1 t) p) q) := by
  obtain ⟨e00, e01, -⟩ := idx1 t
  show V c (Pipeline.arrRef spec1 0) (((cfg1.win 0).blk t).view.emb (ix2 p q)) = _
  refine congrArg (V c (Pipeline.arrRef spec1 0)) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * q.val = q.val; omega

/-- The features' block at point `t` is their rows `5000 t + p`. -/
theorem blk1_1 (p : Fin 5000) (q : Fin 128) :
    (iblk1 V c 1 t : Vec Ideal S5000x128 .f32) (ix2 p q)
      = (V c (Pipeline.arrRef spec1 1) : FVec Ideal S50000x128 .f32) (ix2 (row t.val (lt1 t) p) q) := by
  obtain ⟨-, -, e10, e11, -⟩ := idx1 t
  show V c (Pipeline.arrRef spec1 1) (((cfg1.win 1).blk t).view.emb (ix2 p q)) = _
  refine congrArg (V c (Pipeline.arrRef spec1 1)) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * q.val = q.val; omega

/-- The first matrix's block at every point is the matrix. -/
theorem blk1_2 (k q : Fin 128) :
    (iblk1 V c 2 t : Vec Ideal S128x128 .f32) (ix2 k q) = (V c (Pipeline.arrRef spec1 2) : FVec Ideal S128x128 .f32) (ix2 k q) := by
  obtain ⟨-, -, -, -, e20, e21, -⟩ := idx1 t
  show V c (Pipeline.arrRef spec1 2) (((cfg1.win 2).blk t).view.emb (ix2 k q)) = _
  refine congrArg (V c (Pipeline.arrRef spec1 2)) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The bias row's block at every point is the row. -/
theorem blk1_3 (q : Fin 128) :
    (iblk1 V c 3 t : Vec Ideal S1x128 .f32) (ix2 (0 : Fin 1) q)
      = (V c (Pipeline.arrRef spec1 3) : FVec Ideal S1x128 .f32) (ix2 (0 : Fin 1) q) := by
  obtain ⟨-, -, -, -, -, -, e30, e31, -⟩ := idx1 t
  show V c (Pipeline.arrRef spec1 3) (((cfg1.win 3).blk t).view.emb (ix2 (0 : Fin 1) q : S1x128.Idx)) = _
  refine congrArg (V c (Pipeline.arrRef spec1 3)) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- The second matrix's block at every point is the matrix. -/
theorem blk1_4 (k q : Fin 128) :
    (iblk1 V c 4 t : Vec Ideal S128x128 .f32) (ix2 k q) = (V c (Pipeline.arrRef spec1 4) : FVec Ideal S128x128 .f32) (ix2 k q) := by
  obtain ⟨-, -, -, -, -, -, -, -, e40, e41, -⟩ := idx1 t
  show V c (Pipeline.arrRef spec1 4) (((cfg1.win 4).blk t).view.emb (ix2 k q)) = _
  refine congrArg (V c (Pipeline.arrRef spec1 4)) (funext fun a => Fin.ext ?_)
  match a with
  | ⟨0, _⟩ => show win1_4.index t (0 : Fin 2) * 128 + 1 * k.val = k.val; omega
  | ⟨1, _⟩ => show win1_4.index t (1 : Fin 2) * 128 + 1 * q.val = q.val; omega

/-- Where an element of the output's block at point `t` sits in the array: row `5000 t + ` its row, its column. -/
theorem emb1_5 (j : S5000x128.Idx) :
    (((cfg1.win 5).blk t).view.emb j : S50000x128.Idx) = ix2 (row t.val (lt1 t) (j 0)) (j 1) := by
  obtain ⟨-, -, -, -, -, -, -, -, -, -, e50, e51⟩ := idx1 t
  funext a; apply Fin.ext
  match a with
  | ⟨0, _⟩ => show win1_5.index t (0 : Fin 2) * 5000 + 1 * (j 0).val = t.val * 5000 + (j 0).val; omega
  | ⟨1, _⟩ => show win1_5.index t (1 : Fin 2) * 128 + 1 * (j 1).val = (j 1).val; omega

/-- What point `t` of the second layer writes back is rows `5000 t … 5000 t + 4999` of the layer function of the five
    arrays as the region finds them. -/
theorem flushed1 :
    (dat1 (F := Ideal) V c).flushed 5 t
      = ((cfg1.win 5).blk t).view.read (Elt Ideal)
          (Cert.Sage.Spec.sage (V c (Pipeline.arrRef spec1 0)) (V c (Pipeline.arrRef spec1 1)) (V c (Pipeline.arrRef spec1 2))
            (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [pay1_eq]
  funext j
  exact block0_at (row t.val (lt1 t)) _ _ _ _ _ _ _ _ _ _ (blk1_0 V c t) (blk1_1 V c t) (blk1_2 V c t) (blk1_4 V c t) (blk1_3 V c t) j _
    (emb1_5 t j)

end Blocks1

/-- An index of the array is in point `t`'s output block exactly when each coordinate is in the block's range. -/
theorem mem_blk1 (t : Fin cfg1.N) (i : S50000x128.Idx) :
    i ∈ ((cfg1.win 5).blk t).view.set
      ↔ ∀ a : Fin 2, win1_5.index t a * S5000x128.size a ≤ (i a).val ∧ (i a).val < win1_5.index t a * S5000x128.size a + S5000x128.size a := by
  show i ∈ ((View.whole main_v57).slice (win1_5.rect t)).set ↔ _
  rw [View.set_slice_whole, Rect.mem_set_unit]
  exact Iff.rfl

/-- Row `r` of the array is in the block of point `r / 5000`, which writes back. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 5000 < cfg1.N := by rw [show cfg1.N = 10 from N_1]; omega
  obtain ⟨-, -, -, -, -, -, -, -, -, -, e50, e51⟩ := idx1 ⟨(i 0).val / 5000, hN⟩
  have e50' : win1_5.index ⟨(i 0).val / 5000, hN⟩ (0 : Fin 2) = (i 0).val / 5000 := e50
  refine ⟨⟨(i 0).val / 5000, hN⟩, flush1_5 _, (mem_blk1 _ i).mpr fun a => ?_⟩
  match a with
  | ⟨0, _⟩ =>
    show win1_5.index ⟨(i 0).val / 5000, hN⟩ (0 : Fin 2) * 5000 ≤ (i 0).val
      ∧ (i 0).val < win1_5.index ⟨(i 0).val / 5000, hN⟩ (0 : Fin 2) * 5000 + 5000
    omega
  | ⟨1, _⟩ =>
    show win1_5.index ⟨(i 0).val / 5000, hN⟩ (1 : Fin 2) * 128 ≤ (i 1).val
      ∧ (i 1).val < win1_5.index ⟨(i 0).val / 5000, hN⟩ (1 : Fin 2) * 128 + 128
    omega

/-- THE SECOND LAYER'S OUTPUT ARRAY after its ten points: the layer function of the five arrays the region finds. -/
theorem region1 (V : (c : Dev nD) → (b : Ref sig .tc) → Buf (Elt Ideal) ((c : Thread nD τ).loc b)) (c : Dev nD) :
    (dat1 (F := Ideal) V c).arrAt 5 cfg1.N
      = Cert.Sage.Spec.sage (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5 _ (fun t _ => flushed1 V c t) cover1

/-- The third layer's block function is the first's: it differs by one more cast to the same shape. -/
theorem pay2_eq (v0 v3 : Vec Ideal S5000x128 .f32) (v6 v9 : Vec Ideal S128x128 .f32) (v15 : Vec Ideal S1x128 .f32) :
    k2_pay1 (F := Ideal) v0 v3 v6 v9 v15 = k0_pay1 (F := Ideal) v0 v3 v6 v9 v15 := by
  unfold k2_pay1 k0_pay1
  simp only [shapeCast_self]

/-! ## The third layer -/

/-- The third layer's index maps, decided over the ten points: the two row-blocked inputs move with the output's row
    block, which is the point's number; every other block index is zero. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem lt2 (t : Fin cfg2.N) : t.val < 10 := Nat.lt_of_lt_of_eq t.isLt (show cfg2.N = 10 from N_2)

section Blocks2
variable (V : (c : Dev nD) → (b : Ref sig .tc) → Buf (Elt Ideal) ((c : Thread nD τ).loc b)) (c : Dev nD) (t : Fin cfg2.N)

/-- The scaled neighbour sum's block at point `t` is its rows `5000 t + p`. -/
theorem blk2_0 (p : Fin 5000) (q : Fin 128) :
    (iblk2 V c 0 t : Vec Ideal S5000x128 .f32) (ix2 p q)
      = (V c (Pipeline.arrRef spec2 0) : FVec Ideal S50000x128 .f32) (ix2 (row t.val (lt2 t) p) q) := by
  obtain ⟨e00, e01, -⟩ := idx2 t
  show V c (Pipeline.arrRef spec2 0) (((cfg2.win 0).blk t).view.emb (ix2 p q)) = _
  refine congrArg (V c (Pipeline.arrRef spec2 0)) (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * q.val = q.val; omega

/-- The features' block at point `t` is their rows `5000 t + p`. -/
theorem blk2_1 (p : Fin 5000) (q : Fin 128) :
    (iblk2 V c 1 t : Vec Ideal S5000x128 .f32) (ix2 p q)
      = (V c (Pipeline.arrRef spec2 1) : FVec Ideal S50000x128 .f32) (ix2 (row t.val (lt2 t) p) q) := by
  obtain ⟨-, -, e10, e11, -⟩ := idx2 t
  show V c (Pipeline.arrRef spec2 1) (((cfg2.win 1).blk t).view.emb (ix2 p q)) = _
  refine congrArg (V c (Pipeline.arrRef spec2 1)) (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * q.val = q.val; omega

/-- The first matrix's block at every point is the matrix. -/
theorem blk2_2 (k q : Fin 128) :
    (iblk2 V c 2 t : Vec Ideal S128x128 .f32) (ix2 k q) = (V c (Pipeline.arrRef spec2 2) : FVec Ideal S128x128 .f32) (ix2 k q) := by
  obtain ⟨-, -, -, -, e20, e21, -⟩ := idx2 t
  show V c (Pipeline.arrRef spec2 2) (((cfg2.win 2).blk t).view.emb (ix2 k q)) = _
  refine congrArg (V c (Pipeline.arrRef spec2 2)) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega

/-- The bias row's block at every point is the row. -/
theorem blk2_3 (q : Fin 128) :
    (iblk2 V c 3 t : Vec Ideal S1x128 .f32) (ix2 (0 : Fin 1) q)
      = (V c (Pipeline.arrRef spec2 3) : FVec Ideal S1x128 .f32) (ix2 (0 : Fin 1) q) := by
  obtain ⟨-, -, -, -, -, -, e30, e31, -⟩ := idx2 t
  show V c (Pipeline.arrRef spec2 3) (((cfg2.win 3).blk t).view.emb (ix2 (0 : Fin 1) q : S1x128.Idx)) = _
  refine congrArg (V c (Pipeline.arrRef spec2 3)) (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

/-- The second matrix's block at every point is the matrix. -/
theorem blk2_4 (k q : Fin 128) :
    (iblk2 V c 4 t : Vec Ideal S128x128 .f32) (ix2 k q) = (V c (Pipeline.arrRef spec2 4) : FVec Ideal S128x128 .f32) (ix2 k q) := by
  obtain ⟨-, -, -, -, -, -, -, -, e40, e41, -⟩ := idx2 t
  show V c (Pipeline.arrRef spec2 4) (((cfg2.win 4).blk t).view.emb (ix2 k q)) = _
  refine congrArg (V c (Pipeline.arrRef spec2 4)) (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- Where an element of the output's block at point `t` sits in the array: row `5000 t + ` its row, its column. -/
theorem emb2_5 (j : S5000x128.Idx) :
    (((cfg2.win 5).blk t).view.emb j : S50000x128.Idx) = ix2 (row t.val (lt2 t) (j 0)) (j 1) := by
  obtain ⟨-, -, -, -, -, -, -, -, -, -, e50, e51⟩ := idx2 t
  funext a; apply Fin.ext
  match a with
  | ⟨0, _⟩ => show win2_5.index t (0 : Fin 2) * 5000 + 1 * (j 0).val = t.val * 5000 + (j 0).val; omega
  | ⟨1, _⟩ => show win2_5.index t (1 : Fin 2) * 128 + 1 * (j 1).val = (j 1).val; omega

/-- What point `t` of the third layer writes back is rows `5000 t … 5000 t + 4999` of the layer function of the five
    arrays as the region finds them. -/
theorem flushed2 :
    (dat2 (F := Ideal) V c).flushed 5 t
      = ((cfg2.win 5).blk t).view.read (Elt Ideal)
          (Cert.Sage.Spec.sage (V c (Pipeline.arrRef spec2 0)) (V c (Pipeline.arrRef spec2 1)) (V c (Pipeline.arrRef spec2 2))
            (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  rw [pay2_eq]
  funext j
  exact block0_at (row t.val (lt2 t)) _ _ _ _ _ _ _ _ _ _ (blk2_0 V c t) (blk2_1 V c t) (blk2_2 V c t) (blk2_4 V c t) (blk2_3 V c t) j _
    (emb2_5 t j)

end Blocks2

/-- An index of the array is in point `t`'s output block exactly when each coordinate is in the block's range. -/
theorem mem_blk2 (t : Fin cfg2.N) (i : S50000x128.Idx) :
    i ∈ ((cfg2.win 5).blk t).view.set
      ↔ ∀ a : Fin 2, win2_5.index t a * S5000x128.size a ≤ (i a).val ∧ (i a).val < win2_5.index t a * S5000x128.size a + S5000x128.size a := by
  show i ∈ ((View.whole main_v80).slice (win2_5.rect t)).set ↔ _
  rw [View.set_slice_whole, Rect.mem_set_unit]
  exact Iff.rfl

/-- Row `r` of the array is in the block of point `r / 5000`, which writes back. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : (i 0).val / 5000 < cfg2.N := by rw [show cfg2.N = 10 from N_2]; omega
  obtain ⟨-, -, -, -, -, -, -, -, -, -, e50, e51⟩ := idx2 ⟨(i 0).val / 5000, hN⟩
  have e50' : win2_5.index ⟨(i 0).val / 5000, hN⟩ (0 : Fin 2) = (i 0).val / 5000 := e50
  refine ⟨⟨(i 0).val / 5000, hN⟩, flush2_5 _, (mem_blk2 _ i).mpr fun a => ?_⟩
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    omega
  | ⟨1, _⟩ =>
    show win2_5.index ⟨(i 0).val / 5000, hN⟩ (1 : Fin 2) * 128 ≤ (i 1).val
      ∧ (i 1).val < win2_5.index ⟨(i 0).val / 5000, hN⟩ (1 : Fin 2) * 128 + 128
    omega

/-- THE THIRD LAYER'S OUTPUT ARRAY after its ten points: the layer function of the five arrays the region finds. -/
theorem region2 (V : (c : Dev nD) → (b : Ref sig .tc) → Buf (Elt Ideal) ((c : Thread nD τ).loc b)) (c : Dev nD) :
    (dat2 (F := Ideal) V c).arrAt 5 cfg2.N
      = Cert.Sage.Spec.sage (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5 _ (fun t _ => flushed2 V c t) cover2

end Cert.Sage.Reg

end
-- ==== Proof.RegionHead.lean ====
/-
  The head's output array on the extended reals.

  The head multiplies the 50000×128 feature array by a 128×24 weight matrix and adds a one-row bias. The rows are
  handled in ten blocks of 5000: grid point `t` takes rows `5000·t … 5000·t + 4999` of the features together with the
  whole weight matrix and the whole bias row, and leaves rows `5000·t … 5000·t + 4999` of the result. An entry of a
  block's result depends only on its own row of the feature block and its own column of the small operands, so every
  block is the restriction of one function of the three arrays, `Cert.Sage.Spec.headFn`:
  `(n, p) ↦ ∑ₖ x(n,k)·w(k,p) + b(0,p)`. The ten row blocks cover the 50000 rows (row `r` lies in block `r / 5000`), so
  after the last point the output array is that function.
-/
import proofs.«102709_j34041910788824_1_alg».proof.Proof.Gen.KernelIdeal.Frame
import proofs.«102709_j34041910788824_1_alg».proof.Proof.Spec
import proofs.«102709_j34041910788824_1_alg».proof.Proof.LibPlainDot
import Idealize.ShloMosaic.Lib.Pipeline.Value
import Idealize.ShloMosaic.Lib.ValueIdx
import Idealize.ShloMosaic.PureOps.Ideal

set_option maxRecDepth 16384

noncomputable section

namespace Cert.Sage.RegHead

open Cert.KernelIdeal Cert.KernelIdeal.Gen Idealize.ShloMosaic Idealize.ShloMosaic.TcCoe Idealize.SL.Sem
open Idealize.ShloMosaic.ValueIdx

/-- One row block of the head: the entry at row `p`, column `q` of the block's result is the inner product of row `p`
    of the feature block with column `q` of the weight matrix, plus the bias at column `q`. The narrowing of the
    operands is the identity on the extended reals, and the accumulator starts at zero. -/
theorem block_apply (v0 : Vec Ideal S5000x128 .f32) (v3 : Vec Ideal S128x24 .f32) (v7 : Vec Ideal S1x24 .f32)
    (p : Fin 5000) (q : Fin 24) :
    k3_pay1 (F := Ideal) v0 v3 v7 (ix2 p q)
      = (∑ k : Fin 128, v0 (ix2 p k) * v3 (ix2 k q)) + v7 (ix2 (0 : Fin 1) q) := by
  unfold k3_pay1
  refine (addf_apply _ _ _).trans ?_
  refine congrArg₂ (· + ·) ?_ ?_
  · refine (Cert.PlainDot.matmul_zero_apply 5000 128 24 none _ _ (ix2 p q)).trans ?_
    simp only [shapeCast_self]
    rfl
  · refine (broadcastTo_apply _ _ (ix2 p q) (ix2 (0 : Fin 1) q) ?_).trans ?_
    · intro a
      match a with
      | ⟨0, _⟩ => rfl
      | ⟨1, _⟩ => rfl
    · simp only [shapeCast_self]

/-- The zero offsets of the body's whole-buffer accesses, as the constant function. -/
theorem zero_offsets : (![0, 0] : Fin 2 → Nat) = fun _ => 0 := funext fun a => by fin_cases a <;> rfl

/-- The block indices at grid point `t`: the feature window and the output window sit at row block `t`, column block 0;
    the weight matrix and the bias row are whole, at block (0, 0). Decided over the ten points. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-- The feature block at point `t` is rows `5000·t … 5000·t + 4999` of the feature array. -/
theorem feature_block_apply (c : Dev nD) (t : Fin cfg3.N) (x : S5000x128.Idx) (i : S50000x128.Idx)
    (h0 : (i 0).val = 5000 * t.val + (x 0).val) (h1 : (i 1).val = (x 1).val) :
    (iblk3 (F := Ideal) V c 0 t : Vec Ideal S5000x128 .f32) x
      = (V c (Pipeline.arrRef spec3 0) : S50000x128.Idx → Elt Ideal .f32) i := by
  obtain ⟨e0, e1, -⟩ := index_facts t
  unfold iblk3
  rw [View.read_apply]
  refine congrArg (V c (Pipeline.arrRef spec3 0) : S50000x128.Idx → Elt Ideal .f32) ?_
  funext a; apply Fin.ext
  match a with
  | ⟨0, _⟩ => show win3_0.index t (0 : Fin 2) * 5000 + 1 * (x 0).val = (i 0).val; rw [e0, h0]; omega
  | ⟨1, _⟩ => show win3_0.index t (1 : Fin 2) * 128 + 1 * (x 1).val = (i 1).val; rw [e1, h1]; omega

/-- The weight block at every point is the whole weight matrix. -/
theorem weight_block_apply (c : Dev nD) (t : Fin cfg3.N) (x i : S128x24.Idx)
    (h0 : (i 0).val = (x 0).val) (h1 : (i 1).val = (x 1).val) :
    (iblk3 (F := Ideal) V c 1 t : Vec Ideal S128x24 .f32) x
      = (V c (Pipeline.arrRef spec3 1) : S128x24.Idx → Elt Ideal .f32) i := by
  obtain ⟨-, -, e0, e1, -⟩ := index_facts t
  unfold iblk3
  rw [View.read_apply]
  refine congrArg (V c (Pipeline.arrRef spec3 1) : S128x24.Idx → Elt Ideal .f32) ?_
  funext a; apply Fin.ext
  match a with
  | ⟨0, _⟩ => show win3_1.index t (0 : Fin 2) * 128 + 1 * (x 0).val = (i 0).val; rw [e0, h0]; omega
  | ⟨1, _⟩ => show win3_1.index t (1 : Fin 2) * 24 + 1 * (x 1).val = (i 1).val; rw [e1, h1]; omega

/-- The bias block at every point is the whole bias row. -/
theorem bias_block_apply (c : Dev nD) (t : Fin cfg3.N) (x i : S1x24.Idx)
    (h0 : (i 0).val = (x 0).val) (h1 : (i 1).val = (x 1).val) :
    (iblk3 (F := Ideal) V c 2 t : Vec Ideal S1x24 .f32) x
      = (V c (Pipeline.arrRef spec3 2) : S1x24.Idx → Elt Ideal .f32) i := by
  obtain ⟨-, -, -, -, e0, e1, -⟩ := index_facts t
  unfold iblk3
  rw [View.read_apply]
  refine congrArg (V c (Pipeline.arrRef spec3 2) : S1x24.Idx → Elt Ideal .f32) ?_
  funext a; apply Fin.ext
  match a with
  | ⟨0, _⟩ => show win3_2.index t (0 : Fin 2) * 1 + 1 * (x 0).val = (i 0).val; rw [e0, h0]; omega
  | ⟨1, _⟩ => show win3_2.index t (1 : Fin 2) * 24 + 1 * (x 1).val = (i 1).val; rw [e1, h1]; omega

/-- A block's result at `y` is the head function at `i`, once the block's operands are known to be the rows of the
    arrays that `i` needs: row `y 0` of the feature block is row `i 0` of the features, and column `y 1` of the small
    operands is column `i 1`. -/
theorem block_eq_head (xs : FVec Ideal S50000x128 .f32) (w : FVec Ideal S128x24 .f32) (b : FVec Ideal S1x24 .f32)
    (v0 : Vec Ideal S5000x128 .f32) (v3 : Vec Ideal S128x24 .f32) (v7 : Vec Ideal S1x24 .f32)
    (y : S5000x24.Idx) (i : S50000x24.Idx)
    (h0 : ∀ k : Fin 128, v0 (ix2 (y 0) k) = xs (ix2 (i 0) k))
    (h3 : ∀ k : Fin 128, v3 (ix2 k (y 1)) = w (ix2 k (i 1)))
    (h7 : v7 (ix2 (0 : Fin 1) (y 1)) = b (ix2 (0 : Fin 1) (i 1))) :
    k3_pay1 (F := Ideal) v0 v3 v7 y = Cert.Sage.Spec.headFn xs w b i := by
  refine ((congrArg (k3_pay1 (F := Ideal) v0 v3 v7) (eq_ix2 y)).trans (block_apply v0 v3 v7 (y 0) (y 1))).trans ?_
  show _ = (∑ k : Fin 128, xs (ix2 (i 0) k) * w (ix2 k (i 1))) + b (ix2 (0 : Fin 1) (i 1))
  rw [h7]
  exact congrArg (· + b (ix2 (0 : Fin 1) (i 1))) (Finset.sum_congr rfl fun k _ => by rw [h0 k, h3 k])

/-- What grid point `t` writes back to the output array is block `t` of the head function of the three arrays. -/
theorem point_writes (c : Dev nD) (t : Fin cfg3.N) :
    (dat3 (F := Ideal) V c).flushed 3 t
      = ((cfg3.win 3).blk t).view.read (Elt Ideal)
          (Cert.Sage.Spec.headFn (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero zero_offsets]
  simp only [View.ld_unit_zero (S := S5000x128) zero_offsets, View.ld_unit_zero (S := S128x24) zero_offsets,
    View.ld_unit_zero (S := S1x24) zero_offsets]
  obtain ⟨-, -, -, -, -, -, e0, e1⟩ := index_facts t
  funext j
  rw [View.read_apply]
  refine block_eq_head (V c (Pipeline.arrRef spec3 0)) (V c (Pipeline.arrRef spec3 1)) (V c (Pipeline.arrRef spec3 2))
    (iblk3 (F := Ideal) V c 0 t) (iblk3 (F := Ideal) V c 1 t) (iblk3 (F := Ideal) V c 2 t)
    ((cfg3.win 3).xinj (grid3.coords t) j) (((cfg3.win 3).blk t).view.emb j) (fun k => ?_) (fun k => ?_) ?_
  · refine feature_block_apply V c t _ _ ?_ rfl
    show win3_3.index t (0 : Fin 2) * 5000 + 1 * (j 0).val = 5000 * t.val + (j 0).val
    rw [e0]; omega
  · refine weight_block_apply V c t _ _ rfl ?_
    show win3_3.index t (1 : Fin 2) * 24 + 1 * (j 1).val = (j 1).val
    rw [e1]; omega
  · refine bias_block_apply V c t _ _ rfl ?_
    show win3_3.index t (1 : Fin 2) * 24 + 1 * (j 1).val = (j 1).val
    rw [e1]; omega

/-- An index of the output array lies in point `t`'s block iff each coordinate lies in the block's range on its axis. -/
theorem mem_rows (t : Fin cfg3.N) (i : S50000x24.Idx) :
    i ∈ ((cfg3.win 3).blk t).view.set
      ↔ ∀ a : Fin 2, win3_3.index t a * S5000x24.size a ≤ (i a).val ∧ (i a).val < win3_3.index t a * S5000x24.size a + S5000x24.size a := by
  show i ∈ ((View.whole main_v83).slice (win3_3.rect t)).set ↔ _
  rw [View.set_slice_whole, Rect.mem_set_unit]
  exact Iff.rfl

/-- Row `r` of the output lies in the block of point `r / 5000`, and every point writes its block back. -/
theorem rows_covered (i : S50000x24.Idx) :
    ∃ t : Fin cfg3.N, (cfg3.win 3).flush t = true ∧ i ∈ ((cfg3.win 3).blk t).view.set := by
  have hi0 : (i 0).val < 50000 := (i 0).isLt
  have hi1 : (i 1).val < 24 := (i 1).isLt
  have hN : cfg3.N = 10 := N_3
  let t : Fin cfg3.N := ⟨(i 0).val / 5000, by rw [hN]; omega⟩
  obtain ⟨-, -, -, -, -, -, e0, e1⟩ := index_facts t
  have ht : t.val = (i 0).val / 5000 := rfl
  refine ⟨t, flush3_3 t, ?_⟩
  rw [mem_rows]
  intro a
  match a with
  | ⟨0, _⟩ => show win3_3.index t (0 : Fin 2) * 5000 ≤ (i 0).val ∧ (i 0).val < win3_3.index t (0 : Fin 2) * 5000 + 5000; rw [e0, ht]; omega
  | ⟨1, _⟩ => show win3_3.index t (1 : Fin 2) * 24 ≤ (i 1).val ∧ (i 1).val < win3_3.index t (1 : Fin 2) * 24 + 24; rw [e1]; omega

/-- The head region's output array after the ten points: the head function of the features, the weight matrix and
    the bias row as the region finds them. -/
theorem region3 (c : Dev nD) :
    (dat3 (F := Ideal) V c).arrAt 3 cfg3.N
      = Cert.Sage.Spec.headFn (V c (Pipeline.arrRef spec3 0)) (V c (Pipeline.arrRef spec3 1)) (V c (Pipeline.arrRef spec3 2)) :=
  (dat3 (F := Ideal) V c).arrAt_eq_of_cover 3
    (Cert.Sage.Spec.headFn (V c (Pipeline.arrRef spec3 0)) (V c (Pipeline.arrRef spec3 1)) (V c (Pipeline.arrRef spec3 2)))
    (fun t _ => point_writes V c t) rows_covered

end Cert.Sage.RegHead

end
-- ==== Proof.KGlue.lean ====
/-
  The kernel program's result on the extended reals.

  Each region leaves every input array as it found it and its output array at the region's whole-array function of
  the input arrays, so its exit contents are its entry contents after one more operation; the boundary fold then reads
  as the program's stages composed.
-/
import proofs.«102709_j34041910788824_1_alg».proof.Proof.KFold
import proofs.«102709_j34041910788824_1_alg».proof.Proof.LibRegionOp
import proofs.«102709_j34041910788824_1_alg».proof.Proof.Spec
import proofs.«102709_j34041910788824_1_alg».proof.Proof.RegionSage
import proofs.«102709_j34041910788824_1_alg».proof.Proof.RegionHead

set_option maxRecDepth 16384

noncomputable section

namespace Cert.Sage.KGlue

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- Region 0's exit contents are its entry contents after the first layer's operation. -/
theorem exit0 (c : Dev nD) : W2 m ρ c = (KFold.rop0 (F := Ideal) Spec.sage).result (W1 m ρ c) := by
  unfold W2
  refine Cert.RegionOp.withArrays_eq_result spec0 launch0.win.arr_inj c (W1 m ρ c) _ 5 (KFold.rop0 Spec.sage) rfl ?_ ?_
  · intro w hw
    fin_cases w
    · exact ((dat0 (V1 m ρ) c).arrAt_in 0 rfl _).trans (A_eq0 (V1 m ρ) c 0)
    · exact ((dat0 (V1 m ρ) c).arrAt_in 1 rfl _).trans (A_eq0 (V1 m ρ) c 1)
    · exact ((dat0 (V1 m ρ) c).arrAt_in 2 rfl _).trans (A_eq0 (V1 m ρ) c 2)
    · exact ((dat0 (V1 m ρ) c).arrAt_in 3 rfl _).trans (A_eq0 (V1 m ρ) c 3)
    · exact ((dat0 (V1 m ρ) c).arrAt_in 4 rfl _).trans (A_eq0 (V1 m ρ) c 4)
    · exact absurd rfl hw
  · exact (Reg.region0 (V1 m ρ) c).trans (KFold.rop0_at Spec.sage (W1 m ρ c)).symm

/-- Region 1's exit contents are its entry contents after the second layer's operation. -/
theorem exit1 (c : Dev nD) : W4 m ρ c = (KFold.rop1 (F := Ideal) Spec.sage).result (W3 m ρ c) := by
  unfold W4
  refine Cert.RegionOp.withArrays_eq_result spec1 launch1.win.arr_inj c (W3 m ρ c) _ 5 (KFold.rop1 Spec.sage) rfl ?_ ?_
  · intro w hw
    fin_cases w
    · exact ((dat1 (V3 m ρ) c).arrAt_in 0 rfl _).trans (A_eq1 (V3 m ρ) c 0)
    · exact ((dat1 (V3 m ρ) c).arrAt_in 1 rfl _).trans (A_eq1 (V3 m ρ) c 1)
    · exact ((dat1 (V3 m ρ) c).arrAt_in 2 rfl _).trans (A_eq1 (V3 m ρ) c 2)
    · exact ((dat1 (V3 m ρ) c).arrAt_in 3 rfl _).trans (A_eq1 (V3 m ρ) c 3)
    · exact ((dat1 (V3 m ρ) c).arrAt_in 4 rfl _).trans (A_eq1 (V3 m ρ) c 4)
    · exact absurd rfl hw
  · exact (Reg.region1 (V3 m ρ) c).trans (KFold.rop1_at Spec.sage (W3 m ρ c)).symm

/-- Region 2's exit contents are its entry contents after the third layer's operation. -/
theorem exit2 (c : Dev nD) : W6 m ρ c = (KFold.rop2 (F := Ideal) Spec.sage).result (W5 m ρ c) := by
  unfold W6
  refine Cert.RegionOp.withArrays_eq_result spec2 launch2.win.arr_inj c (W5 m ρ c) _ 5 (KFold.rop2 Spec.sage) rfl ?_ ?_
  · intro w hw
    fin_cases w
    · exact ((dat2 (V5 m ρ) c).arrAt_in 0 rfl _).trans (A_eq2 (V5 m ρ) c 0)
    · exact ((dat2 (V5 m ρ) c).arrAt_in 1 rfl _).trans (A_eq2 (V5 m ρ) c 1)
    · exact ((dat2 (V5 m ρ) c).arrAt_in 2 rfl _).trans (A_eq2 (V5 m ρ) c 2)
    · exact ((dat2 (V5 m ρ) c).arrAt_in 3 rfl _).trans (A_eq2 (V5 m ρ) c 3)
    · exact ((dat2 (V5 m ρ) c).arrAt_in 4 rfl _).trans (A_eq2 (V5 m ρ) c 4)
    · exact absurd rfl hw
  · exact (Reg.region2 (V5 m ρ) c).trans (KFold.rop2_at Spec.sage (W5 m ρ c)).symm

/-- Region 3's exit contents are its entry contents after the head's operation. -/
theorem exit3 (c : Dev nD) : W8 m ρ c = (KFold.rop3 (F := Ideal) Spec.headFn).result (W7 m ρ c) := by
  unfold W8
  refine Cert.RegionOp.withArrays_eq_result spec3 launch3.win.arr_inj c (W7 m ρ c) _ 3 (KFold.rop3 Spec.headFn) rfl ?_ ?_
  · intro w hw
    fin_cases w
    · exact ((dat3 (V7 m ρ) c).arrAt_in 0 rfl _).trans (A_eq3 (V7 m ρ) c 0)
    · exact ((dat3 (V7 m ρ) c).arrAt_in 1 rfl _).trans (A_eq3 (V7 m ρ) c 1)
    · exact ((dat3 (V7 m ρ) c).arrAt_in 2 rfl _).trans (A_eq3 (V7 m ρ) c 2)
    · exact absurd rfl hw
  · exact (RegHead.region3 (V7 m ρ) c).trans (KFold.rop3_at Spec.headFn (W7 m ρ c)).symm

/-- The result buffer at the last boundary: the kernel program's stages, with the regions' functions on the
    extended reals, composed on the arguments' launch contents. -/
theorem result_eq (c : Dev nD) :
    W8 m ρ c (Proc.devRef .tc main_v83)
      = K.whole (F := Ideal) Spec.sage Spec.sage Spec.sage Spec.headFn (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) :=
  KFold.result_eq m ρ Spec.sage Spec.sage Spec.sage Spec.headFn c (exit0 m ρ c) (exit1 m ρ c) (exit2 m ρ c) (exit3 m ρ c)

end Cert.Sage.KGlue

end
-- ==== Proof.LayerLaw.lean ====
/-
  One layer of the kernel program against one layer of the reference, and the two heads, on the extended reals.

  At a node n and an output feature c the kernel program's layer is
    max ((∑ₖ (A(n,k) · I(n)) · W(c,k) + ∑ₖ X(n,k) · Wr(c,k)) + b(c), 0)
  and the reference's is
    max ((∑ₖ (A(n,k) / D(n,0)) · W(c,k) + b(c)) + ∑ₖ X(n,k) · Wr(c,k), 0).
  Where the divisor D(n,0) is a nonzero real r and I(n) is the real 1 / r, a quotient by r is the product with 1 / r
  for every extended real numerator, so the first sums agree term by term; the three summands are then only added
  in another order, and addition of extended reals is commutative and associative. The heads are
    ∑ₖ X(n,k) · Wout(p,k) + bout(p)
  on both sides. Nothing is assumed finite.

  First the layout operations the two programs use, read at an index given by coordinates, over any arrays; then
  each side at an index; then the two statements.
-/
import proofs.«102709_j34041910788824_1_alg».proof.Proof.Spec
import proofs.«102709_j34041910788824_1_alg».proof.Proof.ChainK
import proofs.«102709_j34041910788824_1_alg».proof.Proof.ChainR
import proofs.«102709_j34041910788824_1_alg».proof.Proof.LibPlainDot
import Idealize.ShloMosaic.Lib.ValueLayout
import Idealize.ShloMosaic.Lib.IdealHost

noncomputable section

namespace Cert.Sage.Law

open Idealize.ShloMosaic Idealize.ShloMosaic.ValueIdx

/-! ## Broadcasts read at an index given by coordinates -/

section Layout
variable {α : Type}

/-- A column [n, 1] spread over [n, m] reads, at (p, q), the column at (p, 0). -/
theorem bcast_col_apply {n m : ℕ} (x : (⟨2, ![n, 1]⟩ : Shape).Idx → α)
    (h : (⟨2, ![n, 1]⟩ : Shape).BroadcastsInDim ⟨2, ![n, m]⟩ ![0, 1]) (p : Fin n) (q : Fin m) :
    broadcastInDim ⟨2, ![n, m]⟩ ![0, 1] h x (ix2 p q) = x (ix2 p (0 : Fin 1)) := by
  refine broadcastInDim_apply _ h x (ix2 p q) (ix2 p (0 : Fin 1)) fun a => ?_
  match a with
  | ⟨0, _⟩ =>
    show p.val = if n = 1 then 0 else p.val
    split
    · have := p.isLt; omega
    · rfl
  | ⟨1, _⟩ => rfl

/-- A row [1, m] spread over [n, m] reads, at (p, q), the row at (0, q). -/
theorem bcast_row_apply {n m : ℕ} (x : (⟨2, ![1, m]⟩ : Shape).Idx → α)
    (h : (⟨2, ![1, m]⟩ : Shape).BroadcastsInDim ⟨2, ![n, m]⟩ ![0, 1]) (p : Fin n) (q : Fin m) :
    broadcastInDim ⟨2, ![n, m]⟩ ![0, 1] h x (ix2 p q) = x (ix2 (0 : Fin 1) q) := by
  refine broadcastInDim_apply _ h x (ix2 p q) (ix2 (0 : Fin 1) q) fun a => ?_
  match a with
  | ⟨0, _⟩ => rfl
  | ⟨1, _⟩ =>
    show q.val = if m = 1 then 0 else q.val
    split
    · have := q.isLt; omega
    · rfl

/-- A vector [n] made a column [n, 1] reads, at (p, u), the vector at p. -/
theorem bcast_vec_col_apply {n : ℕ} (x : (⟨1, ![n]⟩ : Shape).Idx → α)
    (h : (⟨1, ![n]⟩ : Shape).BroadcastsInDim ⟨2, ![n, 1]⟩ ![0]) (p : Fin n) (u : Fin 1) :
    broadcastInDim ⟨2, ![n, 1]⟩ ![0] h x (ix2 p u) = x (ix1 p) := by
  refine broadcastInDim_apply _ h x (ix2 p u) (ix1 p) fun a => ?_
  match a with
  | ⟨0, _⟩ =>
    show p.val = if n = 1 then 0 else p.val
    split
    · have := p.isLt; omega
    · rfl

/-- A vector [m] made a row [1, m] reads, at (u, q), the vector at q. -/
theorem bcast_vec_row_apply {m : ℕ} (x : (⟨1, ![m]⟩ : Shape).Idx → α)
    (h : (⟨1, ![m]⟩ : Shape).BroadcastsInDim ⟨2, ![1, m]⟩ ![1]) (u : Fin 1) (q : Fin m) :
    broadcastInDim ⟨2, ![1, m]⟩ ![1] h x (ix2 u q) = x (ix1 q) := by
  refine broadcastInDim_apply _ h x (ix2 u q) (ix1 q) fun a => ?_
  match a with
  | ⟨0, _⟩ =>
    show q.val = if m = 1 then 0 else q.val
    split
    · have := q.isLt; omega
    · rfl

end Layout

/-! ## The region's functions at an index given by coordinates -/

/-- A layer region's function at (n, c). -/
theorem sage_apply (a x : FVec Ideal (⟨2, ![50000, 128]⟩ : Shape) .f32) (wl : FVec Ideal (⟨2, ![128, 128]⟩ : Shape) .f32)
    (b : FVec Ideal (⟨2, ![1, 128]⟩ : Shape) .f32) (wr : FVec Ideal (⟨2, ![128, 128]⟩ : Shape) .f32)
    (n : Fin 50000) (c : Fin 128) :
    Cert.Sage.Spec.sage a x wl b wr (ix2 n c)
      = max (((∑ k : Fin 128, a (ix2 n k) * wl (ix2 k c)) + (∑ k : Fin 128, x (ix2 n k) * wr (ix2 k c)))
          + b (ix2 (0 : Fin 1) c)) (Ideal.ofBits .f32 0x00000000#32) := rfl

/-- The head region's function at (n, p). -/
theorem headFn_apply (x : FVec Ideal (⟨2, ![50000, 128]⟩ : Shape) .f32) (w : FVec Ideal (⟨2, ![128, 24]⟩ : Shape) .f32)
    (b : FVec Ideal (⟨2, ![1, 24]⟩ : Shape) .f32) (n : Fin 50000) (p : Fin 24) :
    Cert.Sage.Spec.headFn x w b (ix2 n p)
      = (∑ k : Fin 128, x (ix2 n k) * w (ix2 k p)) + b (ix2 (0 : Fin 1) p) := rfl

/-! ## The reference's two matrix products at an index -/

/-- The reference's 50000×128 by 128×128 product at (n, c). -/
theorem dot128_apply (l : FVec Ideal (⟨2, ![50000, 128]⟩ : Shape) .f32) (w : FVec Ideal (⟨2, ![128, 128]⟩ : Shape) .f32)
    (n : Fin 50000) (c : Fin 128) :
    Host.dotGeneral (F := Ideal) Cert.ReferenceIdeal.dot_S50000x128_S128x128_S50000x128_1_0_0_1_n_n none l w (ix2 n c)
      = ∑ k : Fin 128, l (ix2 n k) * w (ix2 k c) :=
  Cert.PlainDot.dotGeneral_apply 50000 128 128 none .single l w (ix2 n c)

/-- The reference's 50000×128 by 128×24 product at (n, p). -/
theorem dot24_apply (l : FVec Ideal (⟨2, ![50000, 128]⟩ : Shape) .f32) (w : FVec Ideal (⟨2, ![128, 24]⟩ : Shape) .f32)
    (n : Fin 50000) (p : Fin 24) :
    Host.dotGeneral (F := Ideal) Cert.ReferenceIdeal.dot_S50000x128_S128x24_S50000x24_1_0_0_1_n_n none l w (ix2 n p)
      = ∑ k : Fin 128, l (ix2 n k) * w (ix2 k p) :=
  Cert.PlainDot.dotGeneral_apply 50000 128 24 none .single l w (ix2 n p)

/-! ## The kernel program's layout operations, at its literal shapes, over any arrays -/

section KernelSide
open Cert.KernelIdeal Cert.KernelIdeal.Gen

/-- A vector over the nodes, made a column and spread over the features, reads at (n, k) the vector at n. -/
theorem k_spread (I : FVec Ideal S50000 .f32) (n : Fin 50000) (k : Fin 128) :
    broadcastInDim S50000x128 ![0, 1] bcast_S50000x1_S50000x128_0_1
        (broadcastInDim S50000x1 ![0] bcast_S50000_S50000x1_0 I) (ix2 n k) = I (ix1 n) :=
  (bcast_col_apply _ _ n k).trans (bcast_vec_col_apply I _ n 0)

/-- A 128×128 matrix transposed reads at (k, c) the matrix at (c, k). -/
theorem k_tr128 (W : FVec Ideal S128x128 .f32) (k c : Fin 128) :
    transpose S128x128 [1, 0] W transposes_S128x128_S128x128_1_0 (ix2 k c) = W (ix2 c k) :=
  transpose_ix2_apply W _ k c

/-- A 24×128 matrix transposed reads at (k, p) the matrix at (p, k). -/
theorem k_tr24 (W : FVec Ideal S24x128 .f32) (k : Fin 128) (p : Fin 24) :
    transpose S128x24 [1, 0] W transposes_S24x128_S128x24_1_0 (ix2 k p) = W (ix2 p k) :=
  transpose_ix2_apply W _ k p

/-- The kernel program's layer at (n, c). -/
theorem kLayer_apply (A X : FVec Ideal S50000x128 .f32) (I : FVec Ideal S50000 .f32)
    (W Wr : FVec Ideal S128x128 .f32) (b : FVec Ideal S128 .f32) (n : Fin 50000) (c : Fin 128) :
    Cert.Sage.K.layerOf (F := Ideal) Cert.Sage.Spec.sage A I X W b Wr (ix2 n c)
      = max (((∑ k : Fin 128, (A (ix2 n k) * I (ix1 n)) * W (ix2 c k)) + (∑ k : Fin 128, X (ix2 n k) * Wr (ix2 c k)))
          + b (ix1 c)) (Ideal.ofBits .f32 0x00000000#32) := by
  unfold Cert.Sage.K.layerOf
  refine (sage_apply _ _ _ _ _ n c).trans ?_
  refine congrArg₂ max (congrArg₂ (· + ·) (congrArg₂ (· + ·) (Finset.sum_congr rfl fun k _ => ?_)
    (Finset.sum_congr rfl fun k _ => ?_)) ?_) rfl
  · exact congrArg₂ (· * ·) ((mulf_apply _ _ _).trans (congrArg (A (ix2 n k) * ·) (k_spread I n k))) (k_tr128 W k c)
  · exact congrArg (X (ix2 n k) * ·) (k_tr128 Wr k c)
  · exact shapeCast_a_1a_apply b _ 0 c

/-- The kernel program's head at (n, p). -/
theorem kHead_apply (X : FVec Ideal S50000x128 .f32) (Wout : FVec Ideal S24x128 .f32) (bout : FVec Ideal S24 .f32)
    (n : Fin 50000) (p : Fin 24) :
    Cert.Sage.K.head (F := Ideal) Cert.Sage.Spec.headFn X Wout bout (ix2 n p)
      = (∑ k : Fin 128, X (ix2 n k) * Wout (ix2 p k)) + bout (ix1 p) := by
  unfold Cert.Sage.K.head
  refine (headFn_apply _ _ _ n p).trans ?_
  exact congrArg₂ (· + ·) (Finset.sum_congr rfl fun k _ => congrArg (X (ix2 n k) * ·) (k_tr24 Wout k p))
    (shapeCast_a_1a_apply bout _ 0 p)

end KernelSide

/-! ## The reference's layout operations, at its literal shapes, over any arrays -/

section ReferenceSide
open Cert.ReferenceIdeal Cert.ReferenceIdeal.Gen

/-- A column over the nodes spread over the features reads at (n, k) the column at (n, 0). -/
theorem r_col (D : FVec Ideal S50000x1 .f32) (n : Fin 50000) (k : Fin 128) :
    broadcastInDim S50000x128 ![0, 1] bcast_S50000x1_S50000x128_0_1 D (ix2 n k) = D (ix2 n (0 : Fin 1)) :=
  bcast_col_apply D _ n k

/-- A 128-vector made a row and spread over the nodes reads at (n, c) the vector at c. -/
theorem r_bias128 (b : FVec Ideal S128 .f32) (n : Fin 50000) (c : Fin 128) :
    broadcastInDim S50000x128 ![0, 1] bcast_S1x128_S50000x128_0_1 (broadcastInDim S1x128 ![1] bcast_S128_S1x128_1 b) (ix2 n c)
      = b (ix1 c) :=
  (bcast_row_apply _ _ n c).trans (bcast_vec_row_apply b _ 0 c)

/-- A 24-vector made a row and spread over the nodes reads at (n, p) the vector at p. -/
theorem r_bias24 (b : FVec Ideal S24 .f32) (n : Fin 50000) (p : Fin 24) :
    broadcastInDim S50000x24 ![0, 1] bcast_S1x24_S50000x24_0_1 (broadcastInDim S1x24 ![1] bcast_S24_S1x24_1 b) (ix2 n p)
      = b (ix1 p) :=
  (bcast_row_apply _ _ n p).trans (bcast_vec_row_apply b _ 0 p)

/-- The zero constant spread over the whole array reads the zero word everywhere. -/
theorem r_zero (j : S50000x128.Idx) :
    broadcastInDim S50000x128 ![] bcast_S_S50000x128 (constant (F := Ideal) S_ .f32 0x00000000#32) j
      = Ideal.ofBits .f32 0x00000000#32 :=
  broadcastInDim_scalar_apply _ _ j

/-- A 128×128 matrix transposed reads at (k, c) the matrix at (c, k). -/
theorem r_tr128 (W : FVec Ideal S128x128 .f32) (k c : Fin 128) :
    transpose S128x128 [1, 0] W transposes_S128x128_S128x128_1_0 (ix2 k c) = W (ix2 c k) :=
  transpose_ix2_apply W _ k c

/-- A 24×128 matrix transposed reads at (k, p) the matrix at (p, k). -/
theorem r_tr24 (W : FVec Ideal S24x128 .f32) (k : Fin 128) (p : Fin 24) :
    transpose S128x24 [1, 0] W transposes_S24x128_S128x24_1_0 (ix2 k p) = W (ix2 p k) :=
  transpose_ix2_apply W _ k p

/-- The reference's layer at (n, c). -/
theorem rLayer_apply (A X : FVec Ideal S50000x128 .f32) (D : FVec Ideal S50000x1 .f32)
    (W Wr : FVec Ideal S128x128 .f32) (b : FVec Ideal S128 .f32) (n : Fin 50000) (c : Fin 128) :
    Cert.Sage.R.layerOf (F := Ideal) A D X W b Wr (ix2 n c)
      = max (((∑ k : Fin 128, Ideal.div (A (ix2 n k)) (D (ix2 n (0 : Fin 1))) * W (ix2 c k)) + b (ix1 c))
          + (∑ k : Fin 128, X (ix2 n k) * Wr (ix2 c k))) (Ideal.ofBits .f32 0x00000000#32) := by
  unfold Cert.Sage.R.layerOf
  refine (maximumf_apply _ _ _).trans (congrArg₂ max ?_ (r_zero _))
  refine (addf_apply _ _ _).trans (congrArg₂ (· + ·) ((addf_apply _ _ _).trans (congrArg₂ (· + ·) ?_ (r_bias128 b n c))) ?_)
  · refine (dot128_apply _ _ n c).trans (Finset.sum_congr rfl fun k _ => ?_)
    exact congrArg₂ (· * ·) ((hostDivf_apply _ _ _).trans (congrArg (Ideal.div (A (ix2 n k))) (r_col D n k))) (r_tr128 W k c)
  · exact (dot128_apply _ _ n c).trans (Finset.sum_congr rfl fun k _ => congrArg (X (ix2 n k) * ·) (r_tr128 Wr k c))

/-- The reference's head at (n, p). -/
theorem rHead_apply (X : FVec Ideal S50000x128 .f32) (Wout : FVec Ideal S24x128 .f32) (bout : FVec Ideal S24 .f32)
    (n : Fin 50000) (p : Fin 24) :
    Cert.Sage.R.head (F := Ideal) X Wout bout (ix2 n p)
      = (∑ k : Fin 128, X (ix2 n k) * Wout (ix2 p k)) + bout (ix1 p) := by
  unfold Cert.Sage.R.head
  refine (addf_apply _ _ _).trans (congrArg₂ (· + ·) ?_ (r_bias24 bout n p))
  exact (dot24_apply _ _ n p).trans (Finset.sum_congr rfl fun k _ => congrArg (X (ix2 n k) * ·) (r_tr24 Wout k p))

end ReferenceSide

/-! ## The two statements -/

/-- One layer of the kernel program is one layer of the reference, where the divisor column holds nonzero reals and
    the reciprocal vector their reciprocals. -/
theorem layer_eq (A X : FVec Ideal Cert.KernelIdeal.S50000x128 .f32) (I : FVec Ideal Cert.KernelIdeal.S50000 .f32)
    (D : FVec Ideal Cert.ReferenceIdeal.S50000x1 .f32) (W Wr : FVec Ideal Cert.KernelIdeal.S128x128 .f32)
    (b : FVec Ideal Cert.KernelIdeal.S128 .f32)
    (h : ∀ n : Fin 50000, ∃ r : ℝ, r ≠ 0 ∧ D (ix2 n (0 : Fin 1)) = ((r : ℝ) : EReal) ∧ I (ix1 n) = (((1 / r : ℝ) : ℝ) : EReal)) :
    Cert.Sage.K.layerOf (F := Ideal) Cert.Sage.Spec.sage A I X W b Wr = Cert.Sage.R.layerOf (F := Ideal) A D X W b Wr := by
  funext j
  obtain ⟨n, c, rfl⟩ : ∃ n c, j = ix2 n c := ⟨j 0, j 1, eq_ix2 j⟩
  obtain ⟨r, hr, hD, hI⟩ := h n
  refine (kLayer_apply A X I W Wr b n c).trans (Eq.trans ?_ (rLayer_apply A X D W Wr b n c).symm)
  have e : ∀ k : Fin 128, Ideal.div (A (ix2 n k)) (D (ix2 n (0 : Fin 1))) * W (ix2 c k)
      = (A (ix2 n k) * I (ix1 n)) * W (ix2 c k) := fun k => by
    rw [hD, hI, Ideal.div_coe hr]
  rw [Finset.sum_congr rfl fun k _ => e k]
  exact congrArg (fun t => max t (Ideal.ofBits .f32 0x00000000#32)) (add_right_comm _ _ _)

/-- The kernel program's head is the reference's. -/
theorem head_eq (X : FVec Ideal Cert.KernelIdeal.S50000x128 .f32) (Wout : FVec Ideal Cert.KernelIdeal.S24x128 .f32)
    (bout : FVec Ideal Cert.KernelIdeal.S24 .f32) :
    Cert.Sage.K.head (F := Ideal) Cert.Sage.Spec.headFn X Wout bout = Cert.Sage.R.head (F := Ideal) X Wout bout := by
  funext j
  obtain ⟨n, p, rfl⟩ : ∃ n p, j = ix2 n p := ⟨j 0, j 1, eq_ix2 j⟩
  exact (kHead_apply X Wout bout n p).trans (rHead_apply X Wout bout n p).symm

end Cert.Sage.Law

end
-- ==== Proof.LibRowIndex.lean ====
/-
  Row scatters and row gathers read at an index.

  jax's `segment_sum(data, ids, num_segments = N)` prints as a `stablehlo.scatter` with an `add` body whose scatter
  indices are the `E` words `ids` as an `[E, 1]` array: update row `e` is added to operand row `ids[e]`, read signed,
  when that is a row number, and dropped otherwise (`land`). jax's `x[ids]` prints as a `stablehlo.gather` over the
  same `[E, 1]` array of start indices: result row `e` is operand row `ids[e]`, read signed and clamped into
  `[0, N - 1]` (`pick`). This file states both, for a matrix of rows (`[N, C]`, updates / result `[E, C]`) and for a
  plain vector (`[N]`, updates / result `[E]`), at one element, and the one fact that joins them: an index that lands
  on row `n` picks row `n`.
-/
import Idealize.ShloMosaic.PureOps.Ideal
import Idealize.ShloMosaic.PureOps.Contract
import Idealize.ShloMosaic.Lib.ValueIdx

noncomputable section

open scoped BigOperators

namespace Cert.Lib.RowIndex

open Idealize.ShloMosaic Idealize.ShloMosaic.ValueIdx

/-! ## Where an index word lands, and which row it picks -/

/-- The row an index word names among `N` rows when it is read signed and NOT clamped: `some` row when the signed
    value is in `[0, N)`, `none` otherwise (a scatter drops such an update). -/
def land (N : Nat) {w : Nat} (c : BitVec w) : Option (Fin N) :=
  if h : 0 ≤ c.toInt ∧ c.toInt < (N : Int) then some ⟨c.toInt.toNat, by omega⟩ else none

/-- The row an index word names among `N` rows when it is read signed and clamped into `[0, N - 1]` (a gather
    clamps its start index). -/
def pick (N : Nat) (hN : 0 < N) {w : Nat} (c : BitVec w) : Fin N :=
  ⟨min c.toInt.toNat (N - 1), by omega⟩

/-- An index word that lands on row `n` picks row `n`. -/
theorem pick_of_land {N : Nat} (hN : 0 < N) {w : Nat} (c : BitVec w) (n : Fin N) (h : land N c = some n) :
    pick N hN c = n := by
  unfold land at h
  split at h
  · rename_i hc
    obtain rfl : (⟨c.toInt.toNat, _⟩ : Fin N) = n := Option.some.inj h
    refine Fin.ext ?_
    show min c.toInt.toNat (N - 1) = c.toInt.toNat
    omega
  · exact absurd h (by simp)

/-- A word that lands somewhere is not negative. -/
theorem toInt_nonneg_of_land {N : Nat} {w : Nat} (c : BitVec w) (n : Fin N) (h : land N c = some n) :
    0 ≤ c.toInt := by
  unfold land at h
  split at h
  · rename_i hc
    exact hc.1
  · exact absurd h (by simp)

/-! ## The dimension numbers -/

/-- `segment_sum` of rows: operand `[N, C]`, scatter indices `[E, 1]`, updates `[E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- `segment_sum` of scalars: operand `[N]`, scatter indices `[E, 1]`, updates `[E]`. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- `x[ids]` of a matrix of rows: operand `[N, C]`, start indices `[E, 1]`, result `[E, C]`. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[ids]` of a vector: operand `[N]`, start indices `[E, 1]`, result `[E]`. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-! ## The scatters at an element (extended reals) -/

/-- Axis 0 of a row scatter's window start: the index word, read signed. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).start (ix2 e h) idx (0 : Fin 2) = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e h) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1 of a row scatter's window start: zero (the index names rows only). -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).start (ix2 e h) idx (1 : Fin 2) = 0 := by
  unfold ScatterDims.start
  rw [dif_neg (show ¬ (1 : Fin 2) ∈ ([0] : List (Fin 2)) by decide)]

/-- Axis 0 of a row scatter's window coordinate: zero (a window is one row). -/
theorem rowScatter_window_zero {N E C : Nat}
    (wf : ScatterDims.WF ⟨2, ![N, C]⟩ ⟨2, ![E, 1]⟩ ⟨2, ![E, C]⟩ [1] [0] [0] 1) (e : Fin E) (h : Fin C) :
    (rowScatter N E C wf).window (ix2 e h) (0 : Fin 2) = 0 := by
  unfold ScatterDims.window
  have hm : ¬ (0 : Fin 2) ∈ (rowScatter N E C wf).sKept :=
    (show ¬ (0 : Fin 2) ∈ (List.finRange 2).filter (fun a => a ∉ ([0] : List (Fin 2))) by decide)
  rw [dif_neg hm]

/-- Axis 1 of a row scatter's window coordinate: the update's column. -/
theorem rowScatter_window_one {N E C : Nat}
    (wf : ScatterDims.WF ⟨2, ![N, C]⟩ ⟨2, ![E, 1]⟩ ⟨2, ![E, C]⟩ [1] [0] [0] 1) (e : Fin E) (h : Fin C) :
    (rowScatter N E C wf).window (ix2 e h) (1 : Fin 2) = h.val := by
  unfold ScatterDims.window
  have hm : (1 : Fin 2) ∈ (rowScatter N E C wf).sKept :=
    (show (1 : Fin 2) ∈ (List.finRange 2).filter (fun a => a ∉ ([0] : List (Fin 2))) by decide)
  rw [dif_pos hm]
  rfl

/-- Where update element `(e, h)` of a row scatter goes: row `land` of its index word, column `h`. -/
theorem rowScatter_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (h : Fin C) :
    (rowScatter N E C wf).resultIdx? (ix2 e h) idx
      = (land N (idx (ix2 e (0 : Fin 1)))).map (fun n => ix2 n h) := by
  have h00 := rowScatter_start_zero wf idx e h
  have h01 := rowScatter_start_one wf idx e h
  have h10 := rowScatter_window_zero wf e h
  have h11 := rowScatter_window_one wf e h
  have hC : (h.val : Int) < (C : Int) := by exact_mod_cast h.isLt
  unfold land
  by_cases hc : 0 ≤ (idx (ix2 e (0 : Fin 1))).toInt ∧ (idx (ix2 e (0 : Fin 1))).toInt < (N : Int)
  · rw [dif_pos hc, Option.map_some]
    unfold ScatterDims.resultIdx?
    have hall : ∀ a : Fin 2, 0 ≤ (rowScatter N E C wf).start (ix2 e h) idx a + ((rowScatter N E C wf).window (ix2 e h) a : Int)
        ∧ (rowScatter N E C wf).start (ix2 e h) idx a + ((rowScatter N E C wf).window (ix2 e h) a : Int)
          < ((⟨2, ![N, C]⟩ : Shape).size a : Int) := by
      intro a
      match a with
      | ⟨0, _⟩ =>
        show 0 ≤ (rowScatter N E C wf).start (ix2 e h) idx (0 : Fin 2) + ((rowScatter N E C wf).window (ix2 e h) (0 : Fin 2) : Int)
          ∧ (rowScatter N E C wf).start (ix2 e h) idx (0 : Fin 2) + ((rowScatter N E C wf).window (ix2 e h) (0 : Fin 2) : Int) < (N : Int)
        rw [h00, h10]; simpa using hc
      | ⟨1, _⟩ =>
        show 0 ≤ (rowScatter N E C wf).start (ix2 e h) idx (1 : Fin 2) + ((rowScatter N E C wf).window (ix2 e h) (1 : Fin 2) : Int)
          ∧ (rowScatter N E C wf).start (ix2 e h) idx (1 : Fin 2) + ((rowScatter N E C wf).window (ix2 e h) (1 : Fin 2) : Int) < (C : Int)
        rw [h01, h11]; omega
    rw [dif_pos hall]
    congr 1
    funext a
    refine Fin.ext ?_
    match a with
    | ⟨0, _⟩ =>
      show ((rowScatter N E C wf).start (ix2 e h) idx (0 : Fin 2) + ((rowScatter N E C wf).window (ix2 e h) (0 : Fin 2) : Int)).toNat
        = (idx (ix2 e (0 : Fin 1))).toInt.toNat
      rw [h00, h10]; simp
    | ⟨1, _⟩ =>
      show ((rowScatter N E C wf).start (ix2 e h) idx (1 : Fin 2) + ((rowScatter N E C wf).window (ix2 e h) (1 : Fin 2) : Int)).toNat
        = h.val
      rw [h01, h11]; simp
  · rw [dif_neg hc, Option.map_none]
    unfold ScatterDims.resultIdx?
    rw [dif_neg]
    intro hall
    have := hall (0 : Fin 2)
    rw [h00, h10] at this
    exact hc (by simpa using this)

/-- Update element `j` of a row scatter goes to `(n, h)` exactly when its index word lands on `n` and its
    column is `h`. -/
theorem rowScatter_resultIdx_eq_some_iff {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (n : Fin N) (h : Fin C) :
    (rowScatter N E C wf).resultIdx? j idx = some (ix2 n h)
      ↔ land N (idx (ix2 (j 0) (0 : Fin 1))) = some n ∧ j 1 = h := by
  obtain ⟨e, h', rfl⟩ : ∃ (e : Fin E) (h' : Fin C), j = ix2 e h' := ⟨j 0, j 1, eq_ix2 j⟩
  rw [rowScatter_resultIdx wf idx e h']
  show Option.map (fun m => ix2 m h') (land N (idx (ix2 e (0 : Fin 1)))) = some (ix2 n h)
    ↔ land N (idx (ix2 e (0 : Fin 1))) = some n ∧ h' = h
  constructor
  · intro hh
    obtain ⟨m, hm, hmn⟩ := Option.map_eq_some_iff.mp hh
    have h0 : m = n := congrFun hmn (0 : Fin 2)
    have h1 : h' = h := congrFun hmn (1 : Fin 2)
    exact ⟨by rw [hm, h0], h1⟩
  · rintro ⟨hl, rfl⟩
    rw [hl]
    rfl

/-- Row `n`, column `h` of a row scatter-add: the operand's element plus the sum, over the update rows `e` whose
    index word lands on `n`, of the update's element `(e, h)`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (h : Fin C) :
    Host.scatterAdd (rowScatter N E C wf) x idx upd (ix2 n h)
      = (x (ix2 n h) + ∑ e ∈ Finset.univ.filter (fun e : Fin E => land N (idx (ix2 e (0 : Fin 1))) = some n),
          upd (ix2 e h) : EReal) := by
  show (x (ix2 n h) + ∑ j ∈ Finset.univ.filter
      (fun j => (rowScatter N E C wf).resultIdx? j idx = some (ix2 n h)), upd j : EReal) = _
  congr 1
  refine Finset.sum_nbij' (fun j => j 0) (fun e => ix2 e h) ?_ ?_ ?_ ?_ ?_
  · intro j hj
    have hj' := (rowScatter_resultIdx_eq_some_iff wf idx j n h).mp (Finset.mem_filter.mp hj).2
    exact Finset.mem_filter.mpr ⟨Finset.mem_univ _, hj'.1⟩
  · intro e he
    have he' : land N (idx (ix2 e (0 : Fin 1))) = some n := (Finset.mem_filter.mp he).2
    exact Finset.mem_filter.mpr ⟨Finset.mem_univ _,
      (rowScatter_resultIdx_eq_some_iff wf idx (ix2 e h) n h).mpr ⟨he', rfl⟩⟩
  · intro j hj
    have hj' := (rowScatter_resultIdx_eq_some_iff wf idx j n h).mp (Finset.mem_filter.mp hj).2
    show ix2 (j 0) h = j
    rw [← hj'.2]
    exact (eq_ix2 j).symm
  · intro e _
    rfl
  · intro j hj
    have hj' := (rowScatter_resultIdx_eq_some_iff wf idx j n h).mp (Finset.mem_filter.mp hj).2
    show upd j = upd (ix2 (j 0) h)
    rw [← hj'.2]
    exact congrArg upd (eq_ix2 j)

/-- A scalar scatter's window start: the index word, read signed. -/
theorem vecScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx (0 : Fin 1) = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- A scalar scatter's window coordinate: zero (a window is one element). -/
theorem vecScatter_window {N E : Nat}
    (wf : ScatterDims.WF ⟨1, ![N]⟩ ⟨2, ![E, 1]⟩ ⟨1, ![E]⟩ [] [0] [0] 1) (e : Fin E) :
    (vecScatter N E wf).window (ix1 e) (0 : Fin 1) = 0 := by
  unfold ScatterDims.window
  have hm : ¬ (0 : Fin 1) ∈ (vecScatter N E wf).sKept :=
    (show ¬ (0 : Fin 1) ∈ (List.finRange 1).filter (fun a => a ∉ ([0] : List (Fin 1))) by decide)
  rw [dif_neg hm]

/-- Where update `e` of a scalar scatter goes: element `land` of its index word. -/
theorem vecScatter_resultIdx {N E w : Nat}
    (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx = (land N (idx (ix2 e (0 : Fin 1)))).map (fun n => ix1 n) := by
  have h00 := vecScatter_start wf idx e
  have h10 := vecScatter_window wf e
  unfold land
  by_cases hc : 0 ≤ (idx (ix2 e (0 : Fin 1))).toInt ∧ (idx (ix2 e (0 : Fin 1))).toInt < (N : Int)
  · rw [dif_pos hc, Option.map_some]
    unfold ScatterDims.resultIdx?
    have hall : ∀ a : Fin 1, 0 ≤ (vecScatter N E wf).start (ix1 e) idx a + ((vecScatter N E wf).window (ix1 e) a : Int)
        ∧ (vecScatter N E wf).start (ix1 e) idx a + ((vecScatter N E wf).window (ix1 e) a : Int)
          < ((⟨1, ![N]⟩ : Shape).size a : Int) := by
      intro a
      obtain rfl : a = 0 := Subsingleton.elim _ _
      show 0 ≤ (vecScatter N E wf).start (ix1 e) idx (0 : Fin 1) + ((vecScatter N E wf).window (ix1 e) (0 : Fin 1) : Int)
        ∧ (vecScatter N E wf).start (ix1 e) idx (0 : Fin 1) + ((vecScatter N E wf).window (ix1 e) (0 : Fin 1) : Int) < (N : Int)
      rw [h00, h10]; simpa using hc
    rw [dif_pos hall]
    congr 1
    funext a
    refine Fin.ext ?_
    obtain rfl : a = 0 := Subsingleton.elim _ _
    show ((vecScatter N E wf).start (ix1 e) idx (0 : Fin 1) + ((vecScatter N E wf).window (ix1 e) (0 : Fin 1) : Int)).toNat
      = (idx (ix2 e (0 : Fin 1))).toInt.toNat
    rw [h00, h10]; simp
  · rw [dif_neg hc, Option.map_none]
    unfold ScatterDims.resultIdx?
    rw [dif_neg]
    intro hall
    have := hall (0 : Fin 1)
    rw [h00, h10] at this
    exact hc (by simpa using this)

/-- Update `j` of a scalar scatter goes to element `n` exactly when its index word lands on `n`. -/
theorem vecScatter_resultIdx_eq_some_iff {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (n : Fin N) :
    (vecScatter N E wf).resultIdx? j idx = some (ix1 n) ↔ land N (idx (ix2 (j 0) (0 : Fin 1))) = some n := by
  obtain ⟨e, rfl⟩ : ∃ e : Fin E, j = ix1 e := ⟨j 0, eq_ix1 j⟩
  rw [vecScatter_resultIdx wf idx e]
  show Option.map (fun m => ix1 m) (land N (idx (ix2 e (0 : Fin 1)))) = some (ix1 n)
    ↔ land N (idx (ix2 e (0 : Fin 1))) = some n
  constructor
  · intro hh
    obtain ⟨m, hm, hmn⟩ := Option.map_eq_some_iff.mp hh
    have h0 : m = n := congrFun hmn (0 : Fin 1)
    rw [hm, h0]
  · intro hl
    rw [hl]
    rfl

/-- Element `n` of a scalar scatter-add: the operand's element plus the sum, over the updates `e` whose index word
    lands on `n`, of update `e`. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatter N E wf) x idx upd (ix1 n)
      = (x (ix1 n) + ∑ e ∈ Finset.univ.filter (fun e : Fin E => land N (idx (ix2 e (0 : Fin 1))) = some n),
          upd (ix1 e) : EReal) := by
  show (x (ix1 n) + ∑ j ∈ Finset.univ.filter
      (fun j => (vecScatter N E wf).resultIdx? j idx = some (ix1 n)), upd j : EReal) = _
  congr 1
  refine Finset.sum_nbij' (fun j => j 0) (fun e => ix1 e) ?_ ?_ ?_ ?_ ?_
  · intro j hj
    exact Finset.mem_filter.mpr ⟨Finset.mem_univ _,
      (vecScatter_resultIdx_eq_some_iff wf idx j n).mp (Finset.mem_filter.mp hj).2⟩
  · intro e he
    have he' : land N (idx (ix2 e (0 : Fin 1))) = some n := (Finset.mem_filter.mp he).2
    exact Finset.mem_filter.mpr ⟨Finset.mem_univ _,
      (vecScatter_resultIdx_eq_some_iff wf idx (ix1 e) n).mpr he'⟩
  · intro j _
    exact (eq_ix1 j).symm
  · intro e _
    rfl
  · intro j _
    exact congrArg upd (eq_ix1 j)

/-! ## The gathers at an element (any element type) -/

/-- Axis 0 of the operand index of a row gather: the row the index word picks. -/
theorem rowGather_operandIdx_zero {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (h : Fin C) :
    ((rowGather N E C wf).operandIdx (ix2 e h) idx (0 : Fin 2)).val = (pick N hN (idx (ix2 e (0 : Fin 1)))).val := by
  show (rowGather N E C wf).start (ix2 e h) idx (0 : Fin 2) + (rowGather N E C wf).batchCoord (ix2 e h) (0 : Fin 2)
    + (rowGather N E C wf).offCoord (ix2 e h) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N E C wf).startIndexMap from List.mem_singleton.mpr rfl)]
  have hsi : (rowGather N E C wf).siIdx (ix2 e h) ⟨List.idxOf (0 : Fin 2) (rowGather N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Axis 1 of the operand index of a row gather: the result's column. -/
theorem rowGather_operandIdx_one {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (h : Fin C) :
    ((rowGather N E C wf).operandIdx (ix2 e h) idx (1 : Fin 2)).val = h.val := by
  show (rowGather N E C wf).start (ix2 e h) idx (1 : Fin 2) + (rowGather N E C wf).batchCoord (ix2 e h) (1 : Fin 2)
    + (rowGather N E C wf).offCoord (ix2 e h) (1 : Fin 2) = _
  rw [GatherDims.batchCoord_eq_zero _ _ _ List.not_mem_nil]
  have hs : (rowGather N E C wf).start (ix2 e h) idx (1 : Fin 2) = 0 := by
    unfold GatherDims.start
    rw [dif_neg (show ¬ (1 : Fin 2) ∈ ([0] : List (Fin 2)) by decide)]
  rw [hs]
  simp only [Nat.add_zero, Nat.zero_add]
  unfold GatherDims.offCoord
  rw [dif_pos ((GatherDims.mem_sKept _ _).mpr ⟨show ¬ (1 : Fin 2) ∈ ([0] : List (Fin 2)) by decide, List.not_mem_nil⟩)]
  rfl

/-- Row `e`, column `h` of a row gather: the operand at the row the index word picks, column `h`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (h : Fin C) :
    Host.gather (rowGather N E C wf) x idx (ix2 e h) = x (ix2 (pick N hN (idx (ix2 e (0 : Fin 1)))) h) := by
  unfold Host.gather
  congr 1
  funext a
  refine Fin.ext ?_
  match a with
  | ⟨0, _⟩ => exact rowGather_operandIdx_zero hN wf idx e h
  | ⟨1, _⟩ => exact rowGather_operandIdx_one wf idx e h

/-- Element `e` of a vector gather: the operand at the element the index word picks. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (pick N hN (idx (ix2 e (0 : Fin 1))))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.RowIndex

end
-- ==== Proof.Counts.lean ====
/-
  The divisor of the mean over neighbours.

  Both programs count, for every node, the edges that end at it, by adding a one for every edge into a zero array at
  the edge's destination: the reference into a one-column matrix, the kernel program into a vector. The two index
  arrays are the same array, so both counts are the number of elements of the same finite set of edges, a natural
  number read as a real. Its maximum with one is a real that is at least one, hence not zero, and the kernel
  program's reciprocal of it is the real reciprocal.
-/
import proofs.«102709_j34041910788824_1_alg».proof.Proof.ChainK
import proofs.«102709_j34041910788824_1_alg».proof.Proof.ChainR
import proofs.«102709_j34041910788824_1_alg».proof.Proof.LibRowIndex
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Sage.Counts

open Idealize.ShloMosaic Idealize.ShloMosaic.ValueIdx Cert.Lib.RowIndex

/-- The edges whose destination word lands on node `n`. -/
def ending {N E w : Nat} (idx : IVec ⟨2, ![E, 1]⟩ w) (n : Fin N) : Finset (Fin E) :=
  Finset.univ.filter (fun e : Fin E => land N (idx (ix2 e (0 : Fin 1))) = some n)

/-- A sum of ones over a finite set is the number of its elements. -/
theorem sum_one {ι : Type} (s : Finset ι) : (∑ _e ∈ s, (1 : EReal)) = ((s.card : ℝ) : EReal) := by
  rw [Finset.sum_const, nsmul_one]
  exact (EReal.coe_natCast (n := s.card)).symm

/-- Ones added into a zero one-column matrix at the destinations: at node `n`, the number of edges ending there. -/
theorem rows_count {N E w : Nat} {φ : FTy}
    (wf : ScatterDims.WF ⟨2, ![N, 1]⟩ ⟨2, ![E, 1]⟩ ⟨2, ![E, 1]⟩ [1] [0] [0] 1)
    (x : FVec Ideal ⟨2, ![N, 1]⟩ φ) (idx : IVec ⟨2, ![E, 1]⟩ w) (upd : FVec Ideal ⟨2, ![E, 1]⟩ φ) (n : Fin N)
    (hx : x (ix2 n (0 : Fin 1)) = (0 : EReal)) (hu : ∀ e : Fin E, upd (ix2 e (0 : Fin 1)) = (1 : EReal)) :
    Host.scatterAdd (rowScatter N E 1 wf) x idx upd (ix2 n (0 : Fin 1))
      = ((((ending (N := N) idx n).card : ℝ) : ℝ) : EReal) := by
  refine (scatterAdd_rows_apply wf x idx upd n (0 : Fin 1)).trans ?_
  rw [hx, zero_add]
  refine (Finset.sum_congr rfl (fun e _ => hu e)).trans ?_
  exact sum_one _

/-- Ones added into a zero vector at the destinations: at node `n`, the number of edges ending there. -/
theorem vec_count {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N)
    (hx : x (ix1 n) = (0 : EReal)) (hu : ∀ e : Fin E, upd (ix1 e) = (1 : EReal)) :
    Host.scatterAdd (vecScatter N E wf) x idx upd (ix1 n)
      = ((((ending (N := N) idx n).card : ℝ) : ℝ) : EReal) := by
  refine (scatterAdd_vec_apply wf x idx upd n).trans ?_
  rw [hx, zero_add]
  refine (Finset.sum_congr rfl (fun e _ => hu e)).trans ?_
  exact sum_one _

/-- The maximum of a real count with one, as an extended real, is the real maximum. -/
theorem max_one (c : ℝ) : max ((c : ℝ) : EReal) (1 : EReal) = ((max c 1 : ℝ) : EReal) := by
  rw [← EReal.coe_one]
  rcases le_total c 1 with h | h
  · rw [max_eq_right h, max_eq_right (EReal.coe_le_coe_iff.mpr h)]
  · rw [max_eq_left h, max_eq_left (EReal.coe_le_coe_iff.mpr h)]

/-- One divided by a real that is not zero is the real reciprocal. -/
theorem one_div_coe {r : ℝ} (hr : r ≠ 0) : Ideal.div (1 : EReal) ((r : ℝ) : EReal) = (((1 / r : ℝ) : ℝ) : EReal) := by
  rw [Ideal.div_coe hr, one_mul]

/-- The two programs index their counts by the same array of destinations. -/
theorem dstIdx_eq (ei : (⟨Cert.KernelIdeal.S2x800000, .i32⟩ : BufTy).Contents (Elt Ideal)) :
    Cert.Sage.R.dstIdx (F := Ideal) ei = Cert.Sage.K.dstIdx (F := Ideal) ei := rfl

/-- The reference's divisor at node `n`: the maximum of the number of edges ending at `n` with one. -/
theorem den_apply (ei : (⟨Cert.KernelIdeal.S2x800000, .i32⟩ : BufTy).Contents (Elt Ideal)) (n : Fin 50000) :
    Cert.Sage.R.den (F := Ideal) ei (ix2 n (0 : Fin 1))
      = ((max ((ending (N := 50000) (Cert.Sage.K.dstIdx (F := Ideal) ei) n).card : ℝ) 1 : ℝ) : EReal) := by
  unfold Cert.Sage.R.den
  refine (maximumf_apply _ _ _).trans ?_
  refine (congrArg₂ max ?_ ?_).trans (max_one _)
  · refine (rows_count Cert.ReferenceIdeal.scatter_S50000x1_S800000x1_S800000x1_1_0_0_1.wf _
      (Cert.Sage.R.dstIdx (F := Ideal) ei) _ n ?_ ?_).trans ?_
    · refine (broadcastInDim_scalar_apply _ _ _).trans ?_
      exact Ideal.ofBits_zero_f32
    · intro e
      refine (broadcastInDim_scalar_apply _ _ _).trans ?_
      exact Ideal.ofBits_one_f32
    · rfl
  · refine (broadcastInDim_scalar_apply _ _ _).trans ?_
    exact Ideal.ofBits_one_f32

/-- The kernel program's count at node `n`: the same maximum. -/
theorem cnt_apply (ei : (⟨Cert.KernelIdeal.S2x800000, .i32⟩ : BufTy).Contents (Elt Ideal)) (n : Fin 50000) :
    Cert.Sage.K.cnt (F := Ideal) ei (ix1 n)
      = ((max ((ending (N := 50000) (Cert.Sage.K.dstIdx (F := Ideal) ei) n).card : ℝ) 1 : ℝ) : EReal) := by
  unfold Cert.Sage.K.cnt
  refine (maximumf_apply _ _ _).trans ?_
  refine (congrArg₂ max ?_ ?_).trans (max_one _)
  · refine vec_count Cert.KernelIdeal.scatter_S50000_S800000x1_S800000_n_0_0_1.wf _
      (Cert.Sage.K.dstIdx (F := Ideal) ei) _ n ?_ ?_
    · refine (broadcastInDim_scalar_apply _ _ _).trans ?_
      exact Ideal.ofBits_zero_f32
    · intro e
      refine (broadcastInDim_scalar_apply _ _ _).trans ?_
      exact Ideal.ofBits_one_f32
  · refine (broadcastInDim_scalar_apply _ _ _).trans ?_
    exact Ideal.ofBits_one_f32

/-- The kernel program's reciprocal at node `n`: one over the count. -/
theorem inv_apply (ei : (⟨Cert.KernelIdeal.S2x800000, .i32⟩ : BufTy).Contents (Elt Ideal)) (n : Fin 50000) :
    Cert.Sage.K.inv (F := Ideal) ei (ix1 n)
      = Ideal.div (1 : EReal) (Cert.Sage.K.cnt (F := Ideal) ei (ix1 n)) := by
  unfold Cert.Sage.K.inv
  refine (hostDivf_apply _ _ _).trans ?_
  refine congrArg (fun t => Ideal.div t (Cert.Sage.K.cnt (F := Ideal) ei (ix1 n))) ?_
  refine (broadcastInDim_scalar_apply _ _ _).trans ?_
  exact Ideal.ofBits_one_f32

/-- At every node the reference's divisor is a real `r` that is not zero, and the kernel program's reciprocal is
    the real `1 / r`: `r` is the maximum of the number of edges ending at the node with one. -/
theorem den_inv (ei : (⟨Cert.KernelIdeal.S2x800000, .i32⟩ : BufTy).Contents (Elt Ideal)) :
    ∀ n : Fin 50000, ∃ r : ℝ, r ≠ 0 ∧ Cert.Sage.R.den (F := Ideal) ei (ix2 n (0 : Fin 1)) = ((r : ℝ) : EReal)
      ∧ Cert.Sage.K.inv (F := Ideal) ei (ix1 n) = (((1 / r : ℝ) : ℝ) : EReal) := by
  intro n
  have hr : max ((ending (N := 50000) (Cert.Sage.K.dstIdx (F := Ideal) ei) n).card : ℝ) 1 ≠ 0 :=
    ne_of_gt (lt_of_lt_of_le zero_lt_one (le_max_right _ _))
  refine ⟨max ((ending (N := 50000) (Cert.Sage.K.dstIdx (F := Ideal) ei) n).card : ℝ) 1, hr, den_apply ei n, ?_⟩
  refine (inv_apply ei n).trans ?_
  rw [cnt_apply ei n]
  exact one_div_coe hr

end Cert.Sage.Counts

end
-- ==== Proof.Final.lean ====
/-
  The two programs compute one function, and the claims.

  On the extended reals a layer of the kernel program multiplies the neighbour sum by `1 / max (count, 1)` and a layer of
  the reference divides it by `max (count, 1)`; the divisor is a real number at least 1, so the two agree on every
  extended real, and the remaining difference is the order of two additions. Layer by layer the features agree, and
  the heads are the same sum. The kernel program's run ends at its stages composed, the reference's run at its
  own, from argument arrays that agree.
-/
import proofs.«102709_j34041910788824_1_alg».proof.Defs
import proofs.«102709_j34041910788824_1_alg».proof.Proof.Gen.Kernel.Frame
import proofs.«102709_j34041910788824_1_alg».proof.Proof.Gen.KernelIdeal.Frame
import proofs.«102709_j34041910788824_1_alg».proof.Proof.Gen.ReferenceIdeal.Run
import proofs.«102709_j34041910788824_1_alg».proof.Proof.Gen.Pre_finite_inputs
import proofs.«102709_j34041910788824_1_alg».proof.Proof.KRun
import proofs.«102709_j34041910788824_1_alg».proof.Proof.RefTerm
import proofs.«102709_j34041910788824_1_alg».proof.Proof.Bridge
import proofs.«102709_j34041910788824_1_alg».proof.Proof.Spec
import proofs.«102709_j34041910788824_1_alg».proof.Proof.KGlue
import proofs.«102709_j34041910788824_1_alg».proof.Proof.LayerLaw
import proofs.«102709_j34041910788824_1_alg».proof.Proof.Counts

noncomputable section

open Idealize.ShloMosaic Idealize.ShloMosaic.TcCoe Idealize.SL.Sem

namespace Cert.Sage.Final

/-- One layer: the kernel program's, with its region's function on the extended reals, is the reference's. -/
theorem layer_eq (X : FVec Ideal Cert.KernelIdeal.S50000x128 .f32)
    (ei : (⟨Cert.KernelIdeal.S2x800000, .i32⟩ : BufTy).Contents (Elt Ideal))
    (W Wr : FVec Ideal Cert.KernelIdeal.S128x128 .f32) (b : FVec Ideal Cert.KernelIdeal.S128 .f32) :
    K.layer (F := Ideal) Spec.sage X ei W b Wr = R.layer (F := Ideal) X ei W b Wr := by
  unfold K.layer R.layer
  rw [← Bridge.agg_eq]
  exact Law.layer_eq (K.agg X ei) X (K.inv ei) (R.den ei) W Wr b (Counts.den_inv ei)

/-- The whole programs: three layers and the head. -/
theorem whole_eq (x : FVec Ideal Cert.KernelIdeal.S50000x128 .f32)
    (ei : (⟨Cert.KernelIdeal.S2x800000, .i32⟩ : BufTy).Contents (Elt Ideal))
    (Wl : FVec Ideal Cert.KernelIdeal.S3x128x128 .f32) (bl : FVec Ideal Cert.KernelIdeal.S3x128 .f32)
    (Wr : FVec Ideal Cert.KernelIdeal.S3x128x128 .f32) (Wout : FVec Ideal Cert.KernelIdeal.S24x128 .f32)
    (bout : FVec Ideal Cert.KernelIdeal.S24 .f32) :
    K.whole (F := Ideal) Spec.sage Spec.sage Spec.sage Spec.headFn x ei Wl bl Wr Wout bout
      = R.whole (F := Ideal) x ei Wl bl Wr Wout bout := by
  unfold K.whole R.whole
  rw [Law.head_eq, Bridge.mat0_eq, Bridge.mat0_eq, Bridge.mat1_eq, Bridge.mat1_eq, Bridge.mat2_eq, Bridge.mat2_eq,
    Bridge.row0_eq, Bridge.row1_eq, Bridge.row2_eq, layer_eq, layer_eq, layer_eq]

end Cert.Sage.Final

namespace Cert.Proof.SageClaims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is no conjunct to prove. -/
theorem preserves : Cert.preserves_Kernel_KernelIdeal := trivial

/-- Both runs end at one function of argument arrays that agree. -/
theorem algebraic : Cert.algebraic_KernelIdeal_ReferenceIdeal := by
  intro m ρ m' ρ' _ hagree
  refine ⟨fun c => Cert.Sage.K.whole (F := Ideal) Cert.Sage.Spec.sage Cert.Sage.Spec.sage Cert.Sage.Spec.sage Cert.Sage.Spec.headFn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Sage.KGlue.result_eq m ρ c), (h c).2⟩) (Cert.Sage.KRun.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.Sage.RefTerm.res_eq, (hagree c).1, (hagree c).2.1, (hagree c).2.2.1, (hagree c).2.2.2.1, (hagree c).2.2.2.2.1,
      (hagree c).2.2.2.2.2.1, (hagree c).2.2.2.2.2.2]
    exact (Cert.Sage.Final.whole_eq _ _ _ _ _ _ _).symm

end Cert.Proof.SageClaims

end
-- ==== Proof.lean ====
/-
  Three GraphSAGE layers and a linear head on 50000 nodes with 128 features and 800000 edges: the kernel program
  against its reference, on the extended reals.

  A layer replaces the features `x` by `max (mean-aggregate(x) · Wlᵀ + bl + x · Wrᵀ, 0)`, where the aggregate of a node
  is the sum of the rows of `x` at the sources of the edges ending at it, divided by the number of those edges (1 for
  a node without any). The kernel program computes the neighbour sums and the counts with the same gather and
  scatter-add lines as the reference, multiplies by the reciprocal of the count where the reference divides, and hands
  the two matrix products, the bias and the maximum of each layer, and the head `x · Woutᵀ + bout`, to four pipelined
  regions over row blocks of 5000 nodes. The proof reads each region's output array as one function of its input
  arrays (a block's rows depend on the same rows of the row-blocked operands only), reads the program's segments as
  one line of operations, and joins the two programs layer by layer: the count is a real number at least 1, so the
  product with its reciprocal is the quotient on every extended real, and the rest is the order of two additions.
  No finiteness of the inputs is used.
-/
import proofs.«102709_j34041910788824_1_alg».proof.Defs
import proofs.«102709_j34041910788824_1_alg».proof.Proof.Gen.Kernel
import proofs.«102709_j34041910788824_1_alg».proof.Proof.Gen.Kernel.Skeleton
import proofs.«102709_j34041910788824_1_alg».proof.Proof.Gen.Kernel.Launch
import proofs.«102709_j34041910788824_1_alg».proof.Proof.Gen.Kernel.Points
import proofs.«102709_j34041910788824_1_alg».proof.Proof.Gen.Kernel.Frame
import proofs.«102709_j34041910788824_1_alg».proof.Proof.Gen.KernelIdeal
import proofs.«102709_j34041910788824_1_alg».proof.Proof.Gen.KernelIdeal.Skeleton
import proofs.«102709_j34041910788824_1_alg».proof.Proof.Gen.KernelIdeal.Launch
import proofs.«102709_j34041910788824_1_alg».proof.Proof.Gen.KernelIdeal.Points
import proofs.«102709_j34041910788824_1_alg».proof.Proof.Gen.KernelIdeal.Frame
import proofs.«102709_j34041910788824_1_alg».proof.Proof.Gen.ReferenceIdeal
import proofs.«102709_j34041910788824_1_alg».proof.Proof.Gen.Pre_finite_inputs
import proofs.«102709_j34041910788824_1_alg».proof.Proof.Final
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  SageClaims.frame_k, SageClaims.frame_ki, SageClaims.frame_ri, SageClaims.preserves, SageClaims.algebraic⟩

end Cert.Proof

end
